-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x2048 : Shape := ⟨2, ![50000, 2048]⟩
abbrev S2x400000 : Shape := ⟨2, ![2, 400000]⟩
abbrev S2048x512 : Shape := ⟨2, ![2048, 512]⟩
abbrev S512 : Shape := ⟨1, ![512]⟩
abbrev S_ : Shape := ⟨0, ![]⟩

class Facts : Prop where
  bcast_S_S50000x2048 : S_.BroadcastsInDim S50000x2048 (![] : Fin 0 → Fin S50000x2048.rank)
  reducesTo_S50000x2048_S_d0_1 : S50000x2048.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S50000x2048 .f32) (main_arg1 : IVec S2x400000 32) (main_arg2 : FVec F S2048x512 .f32) (main_arg3 : FVec F S512 .f32) : IVec S_ 1 :=
  let main_v0 : FVec F S50000x2048 .f32 := Host.absf main_arg0
  let main_cst : FVec F S_ .f32 := constant S_ .f32 0x7F800000#32
  let main_v1 : FVec F S50000x2048 .f32 := broadcastInDim S50000x2048 ![] bcast_S_S50000x2048 main_cst
  let main_v2 : IVec S50000x2048 1 := cmpf .olt main_v0 main_v1
  let main_c : IVec S_ 1 := constantI S_ 1 1#1
  let main_v3 : IVec S_ 1 := (fun x v => Host.reduce IntOp.andi x v reducesTo_S50000x2048_S_d0_1 h_S_) main_v2 main_c
  let main_v4 : FVec F S2048x512 .f32 := Host.absf main_arg2
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S50000x2048 : Shape := ⟨2, ![50000, 2048]⟩
abbrev S2x400000 : Shape := ⟨2, ![2, 400000]⟩
abbrev S2048x512 : Shape := ⟨2, ![2048, 512]⟩
abbrev S512 : Shape := ⟨1, ![512]⟩
abbrev S50000 : Shape := ⟨1, ![50000]⟩
abbrev S1x400000 : Shape := ⟨2, ![1, 400000]⟩
abbrev S400000 : Shape := ⟨1, ![400000]⟩
abbrev S450000 : Shape := ⟨1, ![450000]⟩
abbrev S_ : Shape := ⟨0, ![]⟩
abbrev S450000x1 : Shape := ⟨2, ![450000, 1]⟩
abbrev S50176x2048 : Shape := ⟨2, ![50176, 2048]⟩
abbrev S50176x512 : Shape := ⟨2, ![50176, 512]⟩
abbrev S1024x2048 : Shape := ⟨2, ![1024, 2048]⟩
abbrev S1024x512 : Shape := ⟨2, ![1024, 512]⟩
abbrev S50000x512 : Shape := ⟨2, ![50000, 512]⟩
abbrev S50000x1 : Shape := ⟨2, ![50000, 1]⟩
abbrev S450000x512 : Shape := ⟨2, ![450000, 512]⟩
abbrev S1x512 : Shape := ⟨2, ![1, 512]⟩
abbrev S1000x512 : Shape := ⟨2, ![1000, 512]⟩
abbrev S1000 : Shape := ⟨1, ![1000]⟩
abbrev S1000x1 : Shape := ⟨2, ![1000, 1]⟩

abbrev nBuf : Space → Nat
  | .hbm => 51
  | .vmem => 10
  | .smem => 0
  | _ => 0

abbrev bufTy : (tb : Table) → Fin (tcTables nBuf tb) → BufTy
  | .hbm, ⟨0, _⟩ => ⟨S50000x2048, .f32⟩
  | .hbm, ⟨1, _⟩ => ⟨S2x400000, .i32⟩
  | .hbm, ⟨2, _⟩ => ⟨S2048x512, .f32⟩
  | .hbm, ⟨3, _⟩ => ⟨S512, .f32⟩
  | .hbm, ⟨4, _⟩ => ⟨S50000, .i32⟩
  | .hbm, ⟨5, _⟩ => ⟨S1x400000, .i32⟩
  | .hbm, ⟨6, _⟩ => ⟨S400000, .i32⟩
  | .hbm, ⟨7, _⟩ => ⟨S450000, .i32⟩
  | .hbm, ⟨8, _⟩ => ⟨S1x400000, .i32⟩
  | .hbm, ⟨9, _⟩ => ⟨S400000, .i32⟩
  | .hbm, ⟨10, _⟩ => ⟨S450000, .i32⟩
  | .hbm, ⟨11, _⟩ => ⟨S_, .f32⟩
  | .hbm, ⟨12, _⟩ => ⟨S450000, .f32⟩
  | .hbm, ⟨13, _⟩ => ⟨S_, .f32⟩
  | .hbm, ⟨14, _⟩ => ⟨S50000, .f32⟩
  | .hbm, ⟨15, _⟩ => ⟨S450000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .i1⟩
  | .hbm, ⟨20, _⟩ => ⟨S50000, .f32⟩
  | .hbm, ⟨21, _⟩ => ⟨S_, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .i32⟩
  | .hbm, ⟨26, _⟩ => ⟨S_, .f32⟩
  | .hbm, ⟨27, _⟩ => ⟨S50176x2048, .f32⟩
  | .hbm, ⟨28, _⟩ => ⟨S50176x512, .f32⟩
  | .hbm, ⟨29, _⟩ => ⟨S50000x512, .f32⟩
  | .hbm, ⟨30, _⟩ => ⟨S50000x1, .f32⟩
  | .hbm, ⟨31, _⟩ => ⟨S50000x512, .f32⟩
  | .hbm, ⟨32, _⟩ => ⟨S50000x512, .f32⟩
  | .hbm, ⟨33, _⟩ => ⟨S_, .i32⟩
  | .hbm, ⟨34, _⟩ => ⟨S450000, .i32⟩
  | .hbm, ⟨35, _⟩ => ⟨S450000, .i1⟩
  | .hbm, ⟨36, _⟩ => ⟨S_, .i32⟩
  | .hbm, ⟨37, _⟩ => ⟨S450000, .i32⟩
  | .hbm, ⟨38, _⟩ => ⟨S450000, .i32⟩
  | .hbm, ⟨39, _⟩ => ⟨S450000, .i32⟩
  | .hbm, ⟨40, _⟩ => ⟨S450000x1, .i32⟩
  | .hbm, ⟨41, _⟩ => ⟨S450000x512, .f32⟩
  | .hbm, ⟨42, _⟩ => ⟨S_, .f32⟩
  | .hbm, ⟨43, _⟩ => ⟨S50000x512, .f32⟩
  | .hbm, ⟨44, _⟩ => ⟨S450000x1, .i32⟩
  | .hbm, ⟨45, _⟩ => ⟨S50000x512, .f32⟩
  | .hbm, ⟨46, _⟩ => ⟨S50000x1, .f32⟩
  | .hbm, ⟨47, _⟩ => ⟨S50000x512, .f32⟩
  | .hbm, ⟨48, _⟩ => ⟨S50000x512, .f32⟩
  | .hbm, ⟨49, _⟩ => ⟨S1x512, .f32⟩
  | .hbm, ⟨50, _⟩ => ⟨S50000x512, .f32⟩
  | .local _ .vmem, ⟨0, _⟩ => ⟨S1024x2048, .f32⟩
  | .local _ .vmem, ⟨1, _⟩ => ⟨S1024x2048, .f32⟩
  | .local _ .vmem, ⟨2, _⟩ => ⟨S2048x512, .f32⟩
  | .local _ .vmem, ⟨3, _⟩ => ⟨S1024x512, .f32⟩
  | .local _ .vmem, ⟨4, _⟩ => ⟨S1024x512, .f32⟩
  | .local _ .vmem, ⟨5, _⟩ => ⟨S1000x512, .f32⟩
  | .local _ .vmem, ⟨6, _⟩ => ⟨S1000x512, .f32⟩
  | .local _ .vmem, ⟨7, _⟩ => ⟨S1x512, .f32⟩
  | .local _ .vmem, ⟨8, _⟩ => ⟨S1000x512, .f32⟩
  | .local _ .vmem, ⟨9, _⟩ => ⟨S1000x512, .f32⟩
  | _, _ => ⟨S50000x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_call1_v0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x400000_S1x400000_0_0 : S2x400000.Slices ![0, 0] S1x400000
  shapeCasts_S1x400000_S400000 : S1x400000.ShapeCasts S400000
  concatenates_S400000_S50000_S450000_d0 : Shape.Concatenates [S400000, S50000] S450000 0
  slices_S2x400000_S1x400000_1_0 : S2x400000.Slices ![1, 0] S1x400000
  bcast_S_S450000 : S_.BroadcastsInDim S450000 (![] : Fin 0 → Fin S450000.rank)
  bcast_S_S50000 : S_.BroadcastsInDim S50000 (![] : Fin 0 → Fin S50000.rank)
  bcast_S450000_S450000x1_0 : S450000.BroadcastsInDim S450000x1 (![0] : Fin 1 → Fin S450000x1.rank)
  pads_S50000x2048_S50176x2048_01760_000 : S50000x2048.Pads (![0, 0] : Fin 2 → Nat) ![176, 0] ![0, 0] S50176x2048
  h_S_ : 0 < S_.numel
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  inb_S1024x512_S1024x512_0_0 : ∀ a, (![0, 0] : Fin 2 → Nat) a + S1024x512.size a ≤ S1024x512.size a
  h_S1024x512 : 0 < S1024x512.numel
  slices_S50176x512_S50000x512_0_0 : S50176x512.Slices ![0, 0] S50000x512
  bcast_S50000_S50000x1_0 : S50000.BroadcastsInDim S50000x1 (![0] : Fin 1 → Fin S50000x1.rank)
  bcast_S50000x1_S50000x512_0_1 : S50000x1.BroadcastsInDim S50000x512 (![0, 1] : Fin 2 → Fin S50000x512.rank)
  bcast_S_S50000x512 : S_.BroadcastsInDim S50000x512 (![] : Fin 0 → Fin S50000x512.rank)
  shapeCasts_S512_S1x512 : S512.ShapeCasts S1x512
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  reduces_S1000x512_S1000 : S1000x512.Reduces [1] S1000
  shapeCasts_S1000_S1000x1 : S1000.ShapeCasts S1000x1
  broadcasts_S1000x1_S1000x512 : S1000x1.Broadcasts S1000x512
  scatter_S50000_S450000x1_S450000_n_0_0_1_wf : ScatterDims.WF S50000 S450000x1 S450000 [] [0] [0] 1
  dot_S1024x2048_S2048x512_S1024x512_1_0_0_1_n_n_wf : DotDims.WF S1024x2048 S2048x512 S1024x512 [1] [0] [0] [1] [] []
  gather_S50000x512_S450000x1_S450000x512_1_0_n_n_0_1_1512_wf : GatherDims.WF S50000x512 S450000x1 S450000x512 [1] [0] [] [0] [] 1 ![1, 512]
  scatter_S50000x512_S450000x1_S450000x512_1_0_0_1_wf : ScatterDims.WF S50000x512 S450000x1 S450000x512 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S50176x2048.size a
  hwx0_0 : ∀ i : grid0.Coords, EltTy.bits .f32 = 32 ∨ (Rect.block (s := S50176x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x512.size a
  hwx0_1 : ∀ i : grid0.Coords, EltTy.bits .f32 = 32 ∨ (Rect.block (s := S2048x512) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S50176x512.size a
  hwx0_2 : ∀ i : grid0.Coords, EltTy.bits .f32 = 32 ∨ (Rect.block (s := S50176x512) S1024x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x512.size a ≤ S50000x512.size a
  hwx1_0 : ∀ i : grid1.Coords, EltTy.bits .f32 = 32 ∨ (Rect.block (s := S50000x512) S1000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x512.size a ≤ S1x512.size a
  hwx1_1 : ∀ i : grid1.Coords, EltTy.bits .f32 = 32 ∨ (Rect.block (s := S1x512) S1x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x512.size a ≤ S50000x512.size a
  hwx1_2 : ∀ i : grid1.Coords, EltTy.bits .f32 = 32 ∨ (Rect.block (s := S50000x512) S1000x512.size (cc1_transform_2 i) (hinb1_2 i)).WholeWords (EltTy.packing .f32)

variable [Facts₀]

def scatter_S50000_S450000x1_S450000_n_0_0_1 : ScatterDims S50000 S450000x1 S450000 where
  updateWindowDims := []
  insertedWindowDims := [0]
  scatterDimsToOperandDims := [0]
  indexVectorDim := 1
  wf := scatter_S50000_S450000x1_S450000_n_0_0_1_wf
def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf
def gather_S50000x512_S450000x1_S450000x512_1_0_n_n_0_1_1512 : GatherDims S50000x512 S450000x1 S450000x512 where
  offsetDims := [1]
  collapsedSliceDims := [0]
  operandBatchingDims := []
  startIndicesBatchingDims := []
  startIndexMap := [0]
  indexVectorDim := 1
  sliceSizes := ![1, 512]
  wf := gather_S50000x512_S450000x1_S450000x512_1_0_n_n_0_1_1512_wf
def scatter_S50000x512_S450000x1_S450000x512_1_0_0_1 : ScatterDims S50000x512 S450000x1 S450000x512 where
  updateWindowDims := [1]
  insertedWindowDims := [0]
  scatterDimsToOperandDims := [0]
  indexVectorDim := 1
  wf := scatter_S50000x512_S450000x1_S450000x512_1_0_0_1_wf

abbrev win0_0 : Pipeline.Window sig grid0 :=
  Pipeline.Window.ofSpec (Memref.whole main_v15) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2048x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v33) S1000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S1x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v35) S1000x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x2048 : Shape := ⟨2, ![50000, 2048]⟩
abbrev S2x400000 : Shape := ⟨2, ![2, 400000]⟩
abbrev S2048x512 : Shape := ⟨2, ![2048, 512]⟩
abbrev S512 : Shape := ⟨1, ![512]⟩
abbrev S50000 : Shape := ⟨1, ![50000]⟩
abbrev S1x400000 : Shape := ⟨2, ![1, 400000]⟩
abbrev S400000 : Shape := ⟨1, ![400000]⟩
abbrev S450000 : Shape := ⟨1, ![450000]⟩
abbrev S_ : Shape := ⟨0, ![]⟩
abbrev S450000x1 : Shape := ⟨2, ![450000, 1]⟩
abbrev S50000x512 : Shape := ⟨2, ![50000, 512]⟩
abbrev S450000x512 : Shape := ⟨2, ![450000, 512]⟩
abbrev S1x512 : Shape := ⟨2, ![1, 512]⟩
abbrev S50000x1 : Shape := ⟨2, ![50000, 1]⟩

abbrev nBuf : Space → Nat
  | .hbm => 79
  | .vmem => 0
  | .smem => 0
  | _ => 0

abbrev bufTy : (tb : Table) → Fin (tcTables nBuf tb) → BufTy
  | .hbm, ⟨0, _⟩ => ⟨S50000x2048, .f32⟩
  | .hbm, ⟨1, _⟩ => ⟨S2x400000, .i32⟩
  | .hbm, ⟨2, _⟩ => ⟨S2048x512, .f32⟩
  | .hbm, ⟨3, _⟩ => ⟨S512, .f32⟩
  | .hbm, ⟨4, _⟩ => ⟨S50000, .i32⟩
  | .hbm, ⟨5, _⟩ => ⟨S1x400000, .i32⟩
  | .hbm, ⟨6, _⟩ => ⟨S400000, .i32⟩
  | .hbm, ⟨7, _⟩ => ⟨S450000, .i32⟩
  | .hbm, ⟨8, _⟩ => ⟨S1x400000, .i32⟩
  | .hbm, ⟨9, _⟩ => ⟨S400000, .i32⟩
  | .hbm, ⟨10, _⟩ => ⟨S450000, .i32⟩
  | .hbm, ⟨11, _⟩ => ⟨S_, .f32⟩
  | .hbm, ⟨12, _⟩ => ⟨S450000, .f32⟩
  | .hbm, ⟨13, _⟩ => ⟨S_, .f32⟩
  | .hbm, ⟨14, _⟩ => ⟨S50000, .f32⟩
  | .hbm, ⟨15, _⟩ => ⟨S450000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .i1⟩
  | .hbm, ⟨20, _⟩ => ⟨S50000, .f32⟩
  | .hbm, ⟨21, _⟩ => ⟨S_, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .i32⟩
  | .hbm, ⟨26, _⟩ => ⟨S450000, .i32⟩
  | .hbm, ⟨27, _⟩ => ⟨S450000, .i1⟩
  | .hbm, ⟨28, _⟩ => ⟨S_, .i32⟩
  | .hbm, ⟨29, _⟩ => ⟨S450000, .i32⟩
  | .hbm, ⟨30, _⟩ => ⟨S450000, .i32⟩
  | .hbm, ⟨31, _⟩ => ⟨S450000, .i32⟩
  | .hbm, ⟨32, _⟩ => ⟨S450000x1, .i32⟩
  | .hbm, ⟨33, _⟩ => ⟨S450000, .f32⟩
  | .hbm, ⟨34, _⟩ => ⟨S_, .i32⟩
  | .hbm, ⟨35, _⟩ => ⟨S450000, .i32⟩
  | .hbm, ⟨36, _⟩ => ⟨S450000, .i1⟩
  | .hbm, ⟨37, _⟩ => ⟨S_, .i32⟩
  | .hbm, ⟨38, _⟩ => ⟨S450000, .i32⟩
  | .hbm, ⟨39, _⟩ => ⟨S450000, .i32⟩
  | .hbm, ⟨40, _⟩ => ⟨S450000, .i32⟩
  | .hbm, ⟨41, _⟩ => ⟨S450000x1, .i32⟩
  | .hbm, ⟨42, _⟩ => ⟨S450000, .f32⟩
  | .hbm, ⟨43, _⟩ => ⟨S450000, .f32⟩
  | .hbm, ⟨44, _⟩ => ⟨S50000x512, .f32⟩
  | .hbm, ⟨45, _⟩ => ⟨S450000x1, .f32⟩
  | .hbm, ⟨46, _⟩ => ⟨S_, .i32⟩
  | .hbm, ⟨47, _⟩ => ⟨S450000, .i32⟩
  | .hbm, ⟨48, _⟩ => ⟨S450000, .i1⟩
  | .hbm, ⟨49, _⟩ => ⟨S_, .i32⟩
  | .hbm, ⟨50, _⟩ => ⟨S450000, .i32⟩
  | .hbm, ⟨51, _⟩ => ⟨S450000, .i32⟩
  | .hbm, ⟨52, _⟩ => ⟨S450000, .i32⟩
  | .hbm, ⟨53, _⟩ => ⟨S450000x1, .i32⟩
  | .hbm, ⟨54, _⟩ => ⟨S450000x512, .f32⟩
  | .hbm, ⟨55, _⟩ => ⟨S450000x512, .f32⟩
  | .hbm, ⟨56, _⟩ => ⟨S450000x512, .f32⟩
  | .hbm, ⟨57, _⟩ => ⟨S_, .f32⟩
  | .hbm, ⟨58, _⟩ => ⟨S50000x512, .f32⟩
  | .hbm, ⟨59, _⟩ => ⟨S450000x1, .i32⟩
  | .hbm, ⟨60, _⟩ => ⟨S50000x512, .f32⟩
  | .hbm, ⟨61, _⟩ => ⟨S1x512, .f32⟩
  | .hbm, ⟨62, _⟩ => ⟨S50000x512, .f32⟩
  | .hbm, ⟨63, _⟩ => ⟨S50000x512, .f32⟩
  | .hbm, ⟨64, _⟩ => ⟨S_, .f32⟩
  | .hbm, ⟨65, _⟩ => ⟨S50000, .f32⟩
  | .hbm, ⟨66, _⟩ => ⟨S_, .f32⟩
  | .hbm, ⟨67, _⟩ => ⟨S50000, .f32⟩
  | .hbm, ⟨68, _⟩ => ⟨S50000, .f32⟩
  | .hbm, ⟨69, _⟩ => ⟨S50000x1, .f32⟩
  | .hbm, ⟨70, _⟩ => ⟨S50000x512, .f32⟩
  | .hbm, ⟨71, _⟩ => ⟨S50000x512, .f32⟩
  | .hbm, ⟨72, _⟩ => ⟨S50000x512, .f32⟩
  | .hbm, ⟨73, _⟩ => ⟨S_, .f32⟩
  | .hbm, ⟨74, _⟩ => ⟨S50000, .f32⟩
  | .hbm, ⟨75, _⟩ => ⟨S50000x1, .f32⟩
  | .hbm, ⟨76, _⟩ => ⟨S50000x1, .f32⟩
  | .hbm, ⟨77, _⟩ => ⟨S50000x512, .f32⟩
  | .hbm, ⟨78, _⟩ => ⟨S50000x512, .f32⟩
  | _, _ => ⟨S50000x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_call1_cst : Ref sig .tc := ⟨.hbm, 64, rfl⟩
abbrev main_call1_v0 : Ref sig .tc := ⟨.hbm, 65, rfl⟩
abbrev main_call1_cst_0 : Ref sig .tc := ⟨.hbm, 66, rfl⟩
abbrev main_call1_v1 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_call1_v5 : Ref sig .tc := ⟨.hbm, 71, rfl⟩
abbrev main_call1_v6 : Ref sig .tc := ⟨.hbm, 72, rfl⟩
abbrev main_call1_cst_1 : Ref sig .tc := ⟨.hbm, 73, rfl⟩
abbrev main_call1_v7 : Ref sig .tc := ⟨.hbm, 74, rfl⟩
abbrev main_call1_v8 : Ref sig .tc := ⟨.hbm, 75, rfl⟩
abbrev main_call1_v9 : Ref sig .tc := ⟨.hbm, 76, rfl⟩
abbrev main_call1_v10 : Ref sig .tc := ⟨.hbm, 77, rfl⟩
abbrev main_v47 : Ref sig .tc := ⟨.hbm, 78, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  concatenates_S400000_S50000_S450000_d0 : Shape.Concatenates [S400000, S50000] S450000 0
  slices_S2x400000_S1x400000_1_0 : S2x400000.Slices ![1, 0] S1x400000
  bcast_S_S450000 : S_.BroadcastsInDim S450000 (![] : Fin 0 → Fin S450000.rank)
  bcast_S_S50000 : S_.BroadcastsInDim S50000 (![] : Fin 0 → Fin S50000.rank)
  bcast_S450000_S450000x1_0 : S450000.BroadcastsInDim S450000x1 (![0] : Fin 1 → Fin S450000x1.rank)
  bcast_S450000x1_S450000x512_0_1 : S450000x1.BroadcastsInDim S450000x512 (![0, 1] : Fin 2 → Fin S450000x512.rank)
  bcast_S_S50000x512 : S_.BroadcastsInDim S50000x512 (![] : Fin 0 → Fin S50000x512.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  reducesTo_S50000x512_S50000_d1 : S50000x512.ReducesTo [1] S50000
  h_S_ : 0 < S_.numel
  bcast_S50000_S50000x1_0 : S50000.BroadcastsInDim S50000x1 (![0] : Fin 1 → Fin S50000x1.rank)
  bcast_S50000x1_S50000x512_0_1 : S50000x1.BroadcastsInDim S50000x512 (![0, 1] : Fin 2 → Fin S50000x512.rank)
  scatter_S50000_S450000x1_S450000_n_0_0_1_wf : ScatterDims.WF S50000 S450000x1 S450000 [] [0] [0] 1
  gather_S50000_S450000x1_S450000_n_0_n_n_0_1_1_wf : GatherDims.WF S50000 S450000x1 S450000 [] [0] [] [0] [] 1 ![1]
  dot_S50000x2048_S2048x512_S50000x512_1_0_0_1_n_n_wf : DotDims.WF S50000x2048 S2048x512 S50000x512 [1] [0] [0] [1] [] []
  gather_S50000x512_S450000x1_S450000x512_1_0_n_n_0_1_1512_wf : GatherDims.WF S50000x512 S450000x1 S450000x512 [1] [0] [] [0] [] 1 ![1, 512]
  scatter_S50000x512_S450000x1_S450000x512_1_0_0_1_wf : ScatterDims.WF S50000x512 S450000x1 S450000x512 [1] [0] [0] 1

variable [Facts₀]

def scatter_S50000_S450000x1_S450000_n_0_0_1 : ScatterDims S50000 S450000x1 S450000 where
  updateWindowDims := []
  insertedWindowDims := [0]
  scatterDimsToOperandDims := [0]
  indexVectorDim := 1
  wf := scatter_S50000_S450000x1_S450000_n_0_0_1_wf
def gather_S50000_S450000x1_S450000_n_0_n_n_0_1_1 : GatherDims S50000 S450000x1 S450000 where
  offsetDims := []
  collapsedSliceDims := [0]
  operandBatchingDims := []
  startIndicesBatchingDims := []
  startIndexMap := [0]
  indexVectorDim := 1
  sliceSizes := ![1]
  wf := gather_S50000_S450000x1_S450000_n_0_n_n_0_1_1_wf
def dot_S50000x2048_S2048x512_S50000x512_1_0_0_1_n_n : DotDims S50000x2048 S2048x512 S50000x512 where
  lhsContracting := [1]
  rhsContracting := [0]
  lhsNonContracting := [0]
  rhsNonContracting := [1]
  lhsBatch := []
  rhsBatch := []
  wf := dot_S50000x2048_S2048x512_S50000x512_1_0_0_1_n_n_wf
def gather_S50000x512_S450000x1_S450000x512_1_0_n_n_0_1_1512 : GatherDims S50000x512 S450000x1 S450000x512 where
  offsetDims := [1]
  collapsedSliceDims := [0]
  operandBatchingDims := []
  startIndicesBatchingDims := []
  startIndexMap := [0]
  indexVectorDim := 1
  sliceSizes := ![1, 512]
  wf := gather_S50000x512_S450000x1_S450000x512_1_0_n_n_0_1_1512_wf
def scatter_S50000x512_S450000x1_S450000x512_1_0_0_1 : ScatterDims S50000x512 S450000x1 S450000x512 where
  updateWindowDims := [1]
  insertedWindowDims := [0]
  scatterDimsToOperandDims := [0]
  indexVectorDim := 1
  wf := scatter_S50000x512_S450000x1_S450000x512_1_0_0_1_wf

class Facts : Prop extends Facts₀ where

variable [Facts]
-- ==== Proof.KRun.lean ====
/-
  The idealized kernel program's run, with its result named.

  The program is two kernel regions among stretches of host operations. Every weakly fair execution terminates, and at
  the end every unscoped buffer of the device holds the contents that the fold of the program's segments leaves in it
  (host stretches apply their operations; a region leaves in each of its arrays what its write-backs leave there). In
  particular the program's result array holds the last fold's contents at that buffer, and the argument arrays are as
  launched. The value of the result is then read off that fold, segment by segment, elsewhere.
-/
import proofs.«177750_j30288109371814_2_alg».proof.Proof.Gen.KernelIdeal.Frame

set_option maxRecDepth 16384

noncomputable section

namespace Cert.KernelIdeal.KVal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates without a fault; the result array ends at the last fold's
    contents of its buffer, and the four argument arrays end as launched. -/
theorem run_result : θ_run defs (onTc (τ := τ) (main (F := F))) ⟨m, fun _ => 0, ρ⟩ (fun r => ∀ c : Dev nD,
      r.2.mem ((c.tc : Thread nD τ).loc main_v35) = W7 m ρ c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v35 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c)⟩)

end Cert.KernelIdeal.KVal

end
-- ==== Proof.GcnHostIds.lean ====
/-
  The index arrays and the degree factors of the graph, as functions of the edge array alone.

  The edge array is [2, 400000]: row 0 the source ids, row 1 the target ids. Every node also gets a loop edge to
  itself, so both id arrays are the row followed by 0, 1, …, 49999 (450000 ids). The degree of a node is the number
  of edges whose target id is the node (ones added into the nodes by the target ids), and the degree factor is the
  inverse square root of the degree where the degree is positive, zero elsewhere. Both programs compute these arrays
  by the same operations before anything else; they are named here once so that each program's buffers can be
  compared with them.
-/
import Idealize.ShloMosaic.PureOps.Ideal
import Idealize.ShloMosaic.Lib.ValueIdx

noncomputable section

namespace Cert.Gcn.Host

open Idealize.ShloMosaic Idealize.ShloMosaic.ValueIdx

abbrev S2x400000 : Shape := ⟨2, ![2, 400000]⟩
abbrev S1x400000 : Shape := ⟨2, ![1, 400000]⟩
abbrev S400000 : Shape := ⟨1, ![400000]⟩
abbrev S50000 : Shape := ⟨1, ![50000]⟩
abbrev S450000 : Shape := ⟨1, ![450000]⟩
abbrev S450000x1 : Shape := ⟨2, ![450000, 1]⟩
abbrev S_ : Shape := ⟨0, ![]⟩

variable {F : FTy → Type} [FloatOps F]

/-- 400000 ids followed by 50000 ids are 450000 ids. -/
theorem concat_ids : Shape.Concatenates [S400000, S50000] S450000 0 := by decide

/-- A row of the edge array followed by the loop edges' ids 0, 1, …, 49999. -/
def ids (off : Fin 2 → ℕ) (hs : S2x400000.Slices off S1x400000) (x1 : IVec S2x400000 32) : IVec S450000 32 :=
  concatenate S450000 0
    [⟨S400000, shapeCast S400000 (extractStridedSlice S1x400000 off x1 hs) (by decide)⟩,
      ⟨S50000, iotaInDim S50000 32 0⟩] concat_ids

/-- The source ids. -/
def srcIds (x1 : IVec S2x400000 32) : IVec S450000 32 := ids ![0, 0] (by decide) x1
/-- The target ids. -/
def dstIds (x1 : IVec S2x400000 32) : IVec S450000 32 := ids ![1, 0] (by decide) x1

/-- The degrees: ones added into the nodes by the target ids. -/
def degree (x1 : IVec S2x400000 32) : FVec F S50000 .f32 :=
  Host.scatterAdd (F := F)
    ({ updateWindowDims := [], insertedWindowDims := [0], scatterDimsToOperandDims := [0], indexVectorDim := 1,
       wf := by decide } : ScatterDims S50000 S450000x1 S450000)
    (broadcastInDim S50000 ![] (by decide) (constant (F := F) S_ .f32 0x00000000#32))
    (broadcastInDim S450000x1 ![0] (by decide) (dstIds x1))
    (broadcastInDim S450000 ![] (by decide) (constant (F := F) S_ .f32 0x3F800000#32))

/-- The degree factors: the inverse square root of a positive degree, zero elsewhere. -/
def degFactor (x1 : IVec S2x400000 32) : FVec F S50000 .f32 :=
  select (cmpf (F := F) .ogt (degree (F := F) x1) (broadcastInDim S50000 ![] (by decide) (constant (F := F) S_ .f32 0x00000000#32)))
    (Host.rsqrt (degree (F := F) x1))
    (broadcastInDim S50000 ![] (by decide) (id (constant (F := F) S_ .f32 0x00000000#32)))

end Cert.Gcn.Host

end
-- ==== Proof.KHost.lean ====
/-
  The host stretches of the idealized kernel program, read.

  Before the first region the program computes the source and target id arrays and the degree factors from the edge
  array, and pads the node features with 176 zero rows (50176 = 49 · 1024 rows, so that the first region's blocks
  tile them). Between the regions it cuts the padding rows off the first region's product, scales the rows by the
  degree factors, gathers them by the source ids (negative ids wrapped by the number of nodes first), adds them into
  the rows named by the target ids, scales the sums again, and makes the bias a one-row matrix. Here each buffer a
  region is entered with is written as those operations applied to the launch contents of the arguments and to the
  first region's output array.
-/
import proofs.«177750_j30288109371814_2_alg».proof.Proof.Gen.KernelIdeal.Frame
import proofs.«177750_j30288109371814_2_alg».proof.Proof.GcnHostIds
import Idealize.ShloMosaic.PureOps.Ideal
import Idealize.ShloMosaic.Lib.ValueIdx
import Idealize.ShloMosaic.Lib.StableHlo.Run

noncomputable section

namespace Cert.KernelIdeal.KVal

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-! ## The arrays computed before the first region, as the second stretch finds them -/

/-- What the first stretch leaves at a buffer the later stretches before the first region do not write. -/
theorem w4_of_w1 (c : Dev nD) (b : Ref sig .tc)
    (h3 : after hostOps0_3 (W3 m ρ c) (Proc.devRef .tc b) = W3 m ρ c (Proc.devRef .tc b))
    (h2 : after hostOps0_2 (W2 m ρ c) (Proc.devRef .tc b) = W2 m ρ c (Proc.devRef .tc b))
    (h1 : after hostOps0_1 (W1 m ρ c) (Proc.devRef .tc b) = W1 m ρ c (Proc.devRef .tc b)) :
    W4 m ρ c (Proc.devRef .tc b) = W1 m ρ c (Proc.devRef .tc b) :=
  h3.trans (h2.trans h1)

/-- The source ids. -/
theorem w5_src (c : Dev nD) :
    W5 m ρ c (Proc.devRef .tc main_v3) = Cert.Gcn.Host.srcIds (m ((c.tc : Thread nD τ).loc main_arg1)) := by
  rw [W5_of_ne m ρ c main_v3 (by decide)]
  rw [w4_of_w1 m ρ c main_v3 (by after_results) (by after_results) (by after_results)]
  show after hostOps0 (W0 m ρ c) (Proc.devRef .tc main_v3) = _
  after_results
  rfl

/-- The target ids. -/
theorem w5_dst (c : Dev nD) :
    W5 m ρ c (Proc.devRef .tc main_v6) = Cert.Gcn.Host.dstIds (m ((c.tc : Thread nD τ).loc main_arg1)) := by
  rw [W5_of_ne m ρ c main_v6 (by decide)]
  rw [w4_of_w1 m ρ c main_v6 (by after_results) (by after_results) (by after_results)]
  show after hostOps0 (W0 m ρ c) (Proc.devRef .tc main_v6) = _
  after_results
  rfl

end Cert.KernelIdeal.KVal

end
-- ==== Proof.KHostDis.lean ====
/-
  The degree factors of the idealized kernel program, read.

  The first host stretch counts the degrees (ones added into the nodes by the target ids), compares them with zero and
  takes their inverse square roots; a small called function then selects, node by node, the inverse square root where
  the degree is positive and zero elsewhere. The later stretches before the first region do not touch the result. So
  the buffer of degree factors that the second stretch of host operations reads holds Cert.Gcn.Host.degFactor of the
  edge array.
-/
import proofs.«177750_j30288109371814_2_alg».proof.Proof.Gen.KernelIdeal.Frame
import proofs.«177750_j30288109371814_2_alg».proof.Proof.GcnHostIds
import Idealize.ShloMosaic.PureOps.Ideal
import Idealize.ShloMosaic.Lib.ValueIdx
import Idealize.ShloMosaic.Lib.StableHlo.Run

noncomputable section

namespace Cert.KernelIdeal.KVal

open Idealize.ShloMosaic Idealize.ShloMosaic.TcCoe Idealize.SL.Sem Idealize.ShloMosaic.StableHlo
open Cert.KernelIdeal Cert.KernelIdeal.Gen

/-- The called selection, over any contents of the buffers it reads: where the mask is set the second operand,
    elsewhere the third, a scalar repeated over the nodes. -/
theorem where_read (V : Valuation τ sig (Elt Ideal)) :
    after hostOps0_1 V (Proc.devRef .tc main_v14)
      = select (V (Proc.devRef .tc main_v12)) (V (Proc.devRef .tc main_v13))
          (broadcastInDim S50000 ![] bcast_S_S50000 (id (V (Proc.devRef .tc main_cst_2)))) := by
  after_results
  rfl

/-- The constant stretch and the padding stretch leave the degree factors alone. -/
theorem skip2 (V : Valuation τ sig (Elt Ideal)) :
    after hostOps0_2 V (Proc.devRef .tc main_v14) = V (Proc.devRef .tc main_v14) := by
  after_results
theorem skip3 (V : Valuation τ sig (Elt Ideal)) :
    after hostOps0_3 V (Proc.devRef .tc main_v14) = V (Proc.devRef .tc main_v14) := by
  after_results

variable (m : (ℓ : Loc nD τ sig) → Buf (Elt Ideal) ℓ) (ρ : Dev nD → PrngReg)

set_option maxHeartbeats 1000000 in
/-- The mask: the degree is positive. -/
theorem w1_mask (c : Dev nD) : W1 m ρ c (Proc.devRef .tc main_v12)
    = cmpf (F := Ideal) .ogt (Cert.Gcn.Host.degree (F := Ideal) (m ((c.tc : Thread nD τ).loc main_arg1)))
        (broadcastInDim S50000 ![] bcast_S_S50000 (constant (F := Ideal) S_ .f32 0x00000000#32)) := by
  show after hostOps0 (W0 m ρ c) (Proc.devRef .tc main_v12) = _
  after_results
  rfl

set_option maxHeartbeats 1000000 in
/-- The inverse square roots of the degrees. -/
theorem w1_rsqrt (c : Dev nD) : W1 m ρ c (Proc.devRef .tc main_v13)
    = Host.rsqrt (Cert.Gcn.Host.degree (F := Ideal) (m ((c.tc : Thread nD τ).loc main_arg1))) := by
  show after hostOps0 (W0 m ρ c) (Proc.devRef .tc main_v13) = _
  after_results
  rfl

/-- The zero the selection falls back to. -/
theorem w1_zero (c : Dev nD) : W1 m ρ c (Proc.devRef .tc main_cst_2) = constant (F := Ideal) S_ .f32 0x00000000#32 := by
  show after hostOps0 (W0 m ρ c) (Proc.devRef .tc main_cst_2) = _
  after_results

/-- The degree factors. -/
theorem w5_dis (c : Dev nD) :
    W5 m ρ c (Proc.devRef .tc main_v14) = Cert.Gcn.Host.degFactor (F := Ideal) (m ((c.tc : Thread nD τ).loc main_arg1)) := by
  rw [W5_of_ne m ρ c main_v14 (by decide)]
  refine ((skip3 (W3 m ρ c)).trans ((skip2 (W2 m ρ c)).trans (where_read (W1 m ρ c)))).trans ?_
  rw [w1_mask, w1_rsqrt, w1_zero]
  rfl

end Cert.KernelIdeal.KVal

end
-- ==== Proof.GcnSpec.lean ====
/-
  One graph-convolution layer followed by a row-wise log-softmax, as functions on the extended reals.

  Nodes are rows. The layer multiplies the node features by a weight matrix (matProd), weighs every edge's message
  by the product of the two endpoint factors dis(source) · dis(target), adds the messages into their target rows,
  adds a bias and takes the log-softmax of every row. Two arrangements of the weighted sum are stated here:

  • aggPerEdge: every message is weighed on its edge, Σ_e (dis(s_e) · dis(t_e)) · h(s_e, c);
  • aggScaled: the rows are scaled by dis before the messages are read and the summed row is scaled by dis again,
    dis(n) · Σ_e dis(s_e) · h(s_e, c).

  Which edges add into row n is decided by an integer array of target ids read SIGNED (an id outside the rows adds
  nowhere); which row an edge READS is an integer id read signed and CLAMPED into the rows (clampRow). The two
  arrangements agree as soon as every factor dis(n) is a nonnegative real number and an edge that adds into row n has
  the clamped target row n (agg_eq): a nonnegative real factor distributes over any sum of extended reals, and the
  product of extended reals is commutative and associative. Nothing is asked of h: it may hold infinities.
-/
import Idealize.ShloMosaic.PureOps.Ideal
import Idealize.ShloMosaic.Lib.ValueIdx

noncomputable section

open scoped BigOperators

namespace Cert.Gcn

open Idealize.ShloMosaic Idealize.ShloMosaic.ValueIdx

/-- The largest entry of a row, starting from −∞. -/
def rowMax {C : ℕ} (v : Fin C → EReal) : EReal :=
  (Finset.univ : Finset (Fin C)).fold max (Ideal.ofBits .f32 0xFF800000#32) v

/-- The log-softmax of row n at column c: the entry less the row's maximum, less the logarithm of the sum over the
    row of the exponentials of the entries so shifted. -/
def logSoftmax {N C : ℕ} (v : Fin N → Fin C → EReal) (n : Fin N) (c : Fin C) : EReal :=
  (v n c - rowMax (v n)) - Ideal.log (∑ k : Fin C, Ideal.exp (v n k - rowMax (v n)))

/-- The matrix product at an entry. -/
def matProd {N K C : ℕ} (x : (⟨2, ![N, K]⟩ : Shape).Idx → EReal) (w : (⟨2, ![K, C]⟩ : Shape).Idx → EReal)
    (n : Fin N) (c : Fin C) : EReal :=
  ∑ k : Fin K, x (ix2 n k) * w (ix2 k c)

/-- The matrix product as an array. -/
def matProdArr {N K C : ℕ} (x : (⟨2, ![N, K]⟩ : Shape).Idx → EReal) (w : (⟨2, ![K, C]⟩ : Shape).Idx → EReal) :
    (⟨2, ![N, C]⟩ : Shape).Idx → EReal :=
  fun i => matProd x w (i 0) (i 1)

/-- A matrix plus a one-row bias, then the log-softmax of every row, as an array. -/
def biasLogSoftmaxArr {N C : ℕ} (a : (⟨2, ![N, C]⟩ : Shape).Idx → EReal) (b : (⟨2, ![1, C]⟩ : Shape).Idx → EReal) :
    (⟨2, ![N, C]⟩ : Shape).Idx → EReal :=
  fun i => logSoftmax (fun n c => a (ix2 n c) + b (ix2 (0 : Fin 1) c)) (i 0) (i 1)

/-- The row an edge reads: its id read signed and clamped into the N rows. -/
def clampRow (N : ℕ) (hN : 0 < N) {w : ℕ} (id : BitVec w) : Fin N := ⟨min id.toInt.toNat (N - 1), by omega⟩

/-- The edges that add into row n: those whose target id, read signed, is n. -/
def edgesInto {N E w : ℕ} (tgt : IVec ⟨2, ![E, 1]⟩ w) (n : Fin N) : Finset (Fin E) :=
  Finset.univ.filter fun e : Fin E => (tgt (ix2 e (0 : Fin 1))).toInt = (n.val : Int)

/-- Every message weighed on its edge. -/
def aggPerEdge {N C E w : ℕ} (hN : 0 < N) (dis : Fin N → EReal) (h : Fin N → Fin C → EReal)
    (tgt src tgtRead : IVec ⟨2, ![E, 1]⟩ w) (n : Fin N) (c : Fin C) : EReal :=
  0 + ∑ e ∈ edgesInto tgt n,
    (dis (clampRow N hN (src (ix2 e (0 : Fin 1)))) * dis (clampRow N hN (tgtRead (ix2 e (0 : Fin 1)))))
      * h (clampRow N hN (src (ix2 e (0 : Fin 1)))) c

/-- The rows scaled before the messages are read, the summed row scaled again. -/
def aggScaled {N C E w : ℕ} (hN : 0 < N) (dis : Fin N → EReal) (h : Fin N → Fin C → EReal)
    (tgt src : IVec ⟨2, ![E, 1]⟩ w) (n : Fin N) (c : Fin C) : EReal :=
  dis n * (0 + ∑ e ∈ edgesInto tgt n,
    dis (clampRow N hN (src (ix2 e (0 : Fin 1)))) * h (clampRow N hN (src (ix2 e (0 : Fin 1)))) c)

/-- A nonnegative real factor distributes over a finite sum of extended reals, whatever the terms. -/
theorem coe_nonneg_mul_sum {ι : Type} (s : Finset ι) (r : ℝ) (hr : 0 ≤ r) (f : ι → EReal) :
    (r : EReal) * ∑ e ∈ s, f e = ∑ e ∈ s, (r : EReal) * f e := by
  classical
  induction s using Finset.induction_on with
  | empty => simp
  | insert a s ha ih =>
    rw [Finset.sum_insert ha, Finset.sum_insert ha,
      EReal.left_distrib_of_nonneg_of_ne_top (EReal.coe_nonneg.mpr hr) (EReal.coe_ne_top r), ih]

/-- The two arrangements agree when every factor is a nonnegative real and an edge adding into row n has the
    clamped target row n. -/
theorem agg_eq {N C E w : ℕ} (hN : 0 < N) (dis : Fin N → EReal) (hdis : ∀ n, ∃ r : ℝ, 0 ≤ r ∧ dis n = (r : EReal))
    (h : Fin N → Fin C → EReal) (tgt src tgtRead : IVec ⟨2, ![E, 1]⟩ w) (n : Fin N)
    (htgt : ∀ e : Fin E, (tgt (ix2 e (0 : Fin 1))).toInt = (n.val : Int) →
      clampRow N hN (tgtRead (ix2 e (0 : Fin 1))) = n) (c : Fin C) :
    aggScaled hN dis h tgt src n c = aggPerEdge hN dis h tgt src tgtRead n c := by
  obtain ⟨r, hr, hn⟩ := hdis n
  unfold aggScaled aggPerEdge
  rw [zero_add, zero_add, hn, coe_nonneg_mul_sum _ r hr]
  refine Finset.sum_congr rfl fun e he => ?_
  have he' : (tgt (ix2 e (0 : Fin 1))).toInt = (n.val : Int) := (Finset.mem_filter.mp he).2
  rw [htgt e he', hn, ← mul_assoc, mul_comm (r : EReal)]

end Cert.Gcn

end
-- ==== Proof.LibRowOps.lean ====
/-
  Rows of a matrix on the extended reals: a plain matrix product read at an entry, and a row's maximum.

  • A matrix product `[a, K] × [K, b]` whose dimension numbers contract the one shared axis reads, at the entry
    `(r, q)`, as the sum over `k : Fin K` of `lhs (r, k) · rhs (k, q)` — for the kernel's product into a zero
    accumulator and for the host's product alike.  The dimension numbers enter only through four coordinate facts
    (which operand coordinate is the output's, which is the contraction's), so the lemma serves any record.
  • The maximum over the lanes of an `[a, b]` matrix, read at row `p`, is the fold of `max` over that row's entries
    from the accumulator's value — for the kernel's lane reduction and for the host's one-axis reduction alike.
-/
import Idealize.ShloMosaic.Lib.Pipeline.Value
import Idealize.ShloMosaic.Lib.ValueIdx
import Idealize.ShloMosaic.PureOps.Ideal.Laws

namespace Cert.RowOps

open Idealize.ShloMosaic Idealize.ShloMosaic.ValueIdx
open scoped BigOperators

/-- The contraction's sum re-indexed by the one contracted coordinate, for operands read at indices whose
    coordinates are those of a plain product. -/
theorem contr_sum_entry {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (lhs : FVec Ideal ⟨2, ![a, K]⟩ φ₁) (rhs : FVec Ideal ⟨2, ![K, b]⟩ φ₂) (r : Fin a) (q : Fin b) :
    ∑ k : d.contr.Idx, lhs (d.lhsIdx (ix2 r q) k) * rhs (d.rhsIdx (ix2 r q) k)
      = ∑ k : Fin K, lhs (ix2 r k) * rhs (ix2 k q) := by
  rw [← Equiv.sum_comp (contrEquiv1 d K hr hs).symm]
  refine Finset.sum_congr rfl fun k _ => ?_
  have hk := contrEquiv1_symm_val d K hr hs k
  have el : d.lhsIdx (ix2 r q) ((contrEquiv1 d K hr hs).symm k) = ix2 r k := funext fun ax => Fin.ext (by
    match ax with
    | ⟨0, _⟩ => exact hl0 _ _
    | ⟨1, _⟩ => exact (hl1 _ _).trans hk)
  have er : d.rhsIdx (ix2 r q) ((contrEquiv1 d K hr hs).symm k) = ix2 k q := funext fun ax => Fin.ext (by
    match ax with
    | ⟨0, _⟩ => exact (hr0 _ _).trans hk
    | ⟨1, _⟩ => exact hr1 _ _)
  rw [el, er]

/-- The kernel's product into a zero accumulator, at an entry. -/
theorem matmul_zero_entry {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![a, K]⟩ φ₁) (rhs : FVec Ideal ⟨2, ![K, b]⟩ φ₂)
    (r : Fin a) (q : Fin b) :
    matmul d prec lhs rhs (constant (F := Ideal) ⟨2, ![a, b]⟩ .f32 0x00000000#32) (ix2 r q)
      = ∑ k : Fin K, lhs (ix2 r k) * rhs (ix2 k q) :=
  (Ideal.matmul_constant_zero_apply d prec lhs rhs (ix2 r q)).trans
    (contr_sum_entry d hr hs hl0 hl1 hr0 hr1 lhs rhs r q)

/-- The host's product, at an entry. -/
theorem dotGeneral_entry {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![a, K]⟩ φ₁) (rhs : FVec Ideal ⟨2, ![K, b]⟩ φ₂)
    (r : Fin a) (q : Fin b) :
    Host.dotGeneral (F := Ideal) d prec lhs rhs (ix2 r q) = ∑ k : Fin K, lhs (ix2 r k) * rhs (ix2 k q) := by
  simp only [Host.dotGeneral]
  exact (Ideal.dotGeneral_apply d prec _ lhs rhs (ix2 r q)).trans
    (contr_sum_entry d hr hs hl0 hl1 hr0 hr1 lhs rhs r q)

/-- The kernel's maximum over the lanes, at a row: the fold of `max` over the row from the accumulator's value. -/
theorem multiReduction_max_rows {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  refine congrArg (Finset.fold max _ · _) (funext fun k => ?_)
  exact congrArg src (funext fun c => Fin.ext (by match c with | ⟨0, _⟩ => rfl | ⟨1, _⟩ => rfl))

/-- The host's maximum over the lanes, at a row: the same fold from the initial value. -/
theorem hostReduce_max_rows {a b : ℕ} {φ : FTy} (x : FVec Ideal ⟨2, ![a, b]⟩ φ) (init : FVec Ideal ⟨0, ![]⟩ φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduce (FloatOps.maximumf (F := Ideal) (φ := φ)) x init h' hu (ix1 p)
      = (Finset.univ : Finset (Fin b)).fold max (init ix0) (fun k => x (ix2 p k)) := by
  refine (Host.reduce_eq_fold_single FloatOps.maximumf x init h' h hu (ix1 p)).trans ?_
  rw [eq_ix0 (Shape.Idx.first hu)]
  refine congrArg (Finset.fold max _ · _) (funext fun k => ?_)
  exact congrArg x (funext fun c => Fin.ext (by match c with | ⟨0, _⟩ => rfl | ⟨1, _⟩ => rfl))

end Cert.RowOps
-- ==== Proof.KRegion0.lean ====
/-
  Region 0: the feature product. The region's grid has 49 points; point t stages rows 1024·t … 1024·t + 1023 of the
  left array [50176, 2048], the whole right array [2048, 512], and writes back rows 1024·t … 1024·t + 1023 of the
  output array [50176, 512].

  • The body narrows both blocks to a shorter floating-point format, which is the identity on the extended reals, and
    multiplies them into a zero accumulator: at entry (p, q) of its block it leaves Σ_k left(p, k) · right(k, q)
    (payload_entry), the dimension numbers entering through four coordinate facts (lhs_row … rhs_col).
  • A block's element sits in its array at block index × block size + its coordinate inside the block; the left and the
    output windows are at block (t, 0) and the right window at block (0, 0) (idx_facts). So what point t writes back
    is block t of the product of the two arrays (flushed_eq).
  • Row r of the output lies in block r / 1024, every point writes back, and 49 · 1024 = 50176: the blocks fill the
    array (cover), which therefore ends holding the product (final).
-/
import proofs.«177750_j30288109371814_2_alg».proof.Proof.Gen.KernelIdeal.Frame
import proofs.«177750_j30288109371814_2_alg».proof.Proof.GcnSpec
import proofs.«177750_j30288109371814_2_alg».proof.Proof.LibRowOps
import Idealize.ShloMosaic.Lib.Pipeline.Value
import Idealize.ShloMosaic.Lib.ValueIdx
import Idealize.ShloMosaic.PureOps.Ideal.Laws

noncomputable section

namespace Cert.KernelIdeal.Region0

open Cert.KernelIdeal Cert.KernelIdeal.Gen Idealize.ShloMosaic Idealize.ShloMosaic.TcCoe Idealize.SL.Sem Idealize.ShloMosaic.ValueIdx
open scoped BigOperators

/-! ## The body's product at an entry -/

/-- Row coordinate of the left operand's index: the output's row. -/
theorem lhs_row (i : S1024x512.Idx) (q : dot_S1024x2048_S2048x512_S1024x512_1_0_0_1_n_n.contr.Idx) :
    (dot_S1024x2048_S2048x512_S1024x512_1_0_0_1_n_n.lhsIdx i q 0).val = (i 0).val := by
  unfold DotDims.lhsIdx
  rw [dif_neg (show ¬(0 : Fin S1024x2048.rank) ∈ dot_S1024x2048_S2048x512_S1024x512_1_0_0_1_n_n.lhsBatch by decide),
    dif_pos (show (0 : Fin S1024x2048.rank) ∈ dot_S1024x2048_S2048x512_S1024x512_1_0_0_1_n_n.lhsNonContracting by decide)]
  rfl

/-- Column coordinate of the left operand's index: the contracted position. -/
theorem lhs_col (i : S1024x512.Idx) (q : dot_S1024x2048_S2048x512_S1024x512_1_0_0_1_n_n.contr.Idx) :
    (dot_S1024x2048_S2048x512_S1024x512_1_0_0_1_n_n.lhsIdx i q 1).val = (q ⟨0, by decide⟩).val :=
  dot_S1024x2048_S2048x512_S1024x512_1_0_0_1_n_n.lhsIdx_val_of_single rfl i q

/-- Row coordinate of the right operand's index: the contracted position. -/
theorem rhs_row (i : S1024x512.Idx) (q : dot_S1024x2048_S2048x512_S1024x512_1_0_0_1_n_n.contr.Idx) :
    (dot_S1024x2048_S2048x512_S1024x512_1_0_0_1_n_n.rhsIdx i q 0).val = (q ⟨0, by decide⟩).val :=
  dot_S1024x2048_S2048x512_S1024x512_1_0_0_1_n_n.rhsIdx_val_of_single rfl i q

/-- Column coordinate of the right operand's index: the output's column. -/
theorem rhs_col (i : S1024x512.Idx) (q : dot_S1024x2048_S2048x512_S1024x512_1_0_0_1_n_n.contr.Idx) :
    (dot_S1024x2048_S2048x512_S1024x512_1_0_0_1_n_n.rhsIdx i q 1).val = (i 1).val := by
  unfold DotDims.rhsIdx
  rw [dif_neg (show ¬(1 : Fin S2048x512.rank) ∈ dot_S1024x2048_S2048x512_S1024x512_1_0_0_1_n_n.rhsBatch by decide),
    dif_pos (show (1 : Fin S2048x512.rank) ∈ dot_S1024x2048_S2048x512_S1024x512_1_0_0_1_n_n.rhsNonContracting by decide)]
  rfl

/-- The body's value at entry (p, q) of its block: the sum over k of the left block at (p, k) times the right block
    at (k, q). Narrowing to the shorter format is the identity on the extended reals, and the product starts from a
    zero accumulator. -/
theorem payload_entry (x0 : Vec Ideal S1024x2048 .f32) (x1 : Vec Ideal S2048x512 .f32) (p : Fin 1024) (q : Fin 512) :
    k0_pay1 (F := Ideal) x0 x1 (ix2 p q) = ∑ k : Fin 2048, x0 (ix2 p k) * x1 (ix2 k q) := by
  unfold k0_pay1
  refine (Cert.RowOps.matmul_zero_entry dot_S1024x2048_S2048x512_S1024x512_1_0_0_1_n_n rfl rfl
    lhs_row lhs_col rhs_row rhs_col none _ _ p q).trans ?_
  refine Finset.sum_congr rfl fun k _ => ?_
  rw [truncf_apply, truncf_apply, shapeCast_self]

/-! ## From the body's block to the product of the two arrays -/

/-- An entry of the body's block whose left row is row `i 0` of `A` and whose right column is column `i 1` of `B`
    is entry `i` of the product `A · B`. -/
theorem payload_block (x0 : Vec Ideal S1024x2048 .f32) (x1 : Vec Ideal S2048x512 .f32)
    (A : S50176x2048.Idx → EReal) (B : S2048x512.Idx → EReal) (y : S1024x512.Idx) (i : S50176x512.Idx)
    (h0 : ∀ k : Fin 2048, x0 (ix2 (n0 := 1024) (y 0) k) = A (ix2 (n0 := 50176) (i 0) k))
    (h1 : ∀ k : Fin 2048, x1 (ix2 (n1 := 512) k (y 1)) = B (ix2 (n1 := 512) k (i 1))) :
    k0_pay1 (F := Ideal) x0 x1 y = Cert.Gcn.matProdArr (N := 50176) (K := 2048) (C := 512) A B i := by
  refine (congrArg (k0_pay1 (F := Ideal) x0 x1) (eq_ix2 y)).trans ?_
  refine (payload_entry x0 x1 (y 0) (y 1)).trans ?_
  unfold Cert.Gcn.matProdArr Cert.Gcn.matProd
  exact Finset.sum_congr rfl fun k _ => congrArg₂ (· * ·) (h0 k) (h1 k)

theorem hz : (![0, 0] : Fin 2 → Nat) = fun _ => 0 := funext fun a => by fin_cases a <;> rfl

/-- The block indices over the grid: the left window and the output window are at block (t, 0), the right window
    at block (0, 0), at every point t. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left window's block at point t, at (p, k), is the left array at row t · 1024 + p, column k. -/
theorem lhs_block_read (V : (c : Dev nD) → (b : Ref sig .tc) → Buf (Elt Ideal) ((c : Thread nD τ).loc b)) (c : Dev nD)
    (t : Fin cfg0.N) (p : Fin 1024) (k : Fin 2048) (r : Fin 50176) (hr : r.val = t.val * 1024 + p.val) :
    (iblk0 (F := Ideal) V c 0 t : Vec Ideal S1024x2048 .f32) (ix2 p k) = (V c main_v15 : S50176x2048.Idx → EReal) (ix2 r k) := by
  obtain ⟨e0, e1, -⟩ := idx_facts t
  show V c main_v15 (((cfg0.win 0).blk t).view.emb (ix2 p k)) = V c main_v15 (ix2 r k)
  refine congrArg _ (funext fun a => Fin.ext ?_)
  match a with
  | ⟨0, _⟩ => show win0_0.index t (0 : Fin 2) * 1024 + 1 * p.val = r.val; rw [e0, hr]; omega
  | ⟨1, _⟩ => show win0_0.index t (1 : Fin 2) * 2048 + 1 * k.val = k.val; rw [e1]; omega

/-- The right window's block at any point, at (k, q), is the right array at (k, q). -/
theorem rhs_block_read (V : (c : Dev nD) → (b : Ref sig .tc) → Buf (Elt Ideal) ((c : Thread nD τ).loc b)) (c : Dev nD)
    (t : Fin cfg0.N) (k : Fin 2048) (q q' : Fin 512) (hq : q'.val = q.val) :
    (iblk0 (F := Ideal) V c 1 t : Vec Ideal S2048x512 .f32) (ix2 k q) = (V c main_arg2 : S2048x512.Idx → EReal) (ix2 k q') := by
  obtain ⟨-, -, e2, e3, -⟩ := idx_facts t
  show V c main_arg2 (((cfg0.win 1).blk t).view.emb (ix2 k q)) = V c main_arg2 (ix2 k q')
  refine congrArg _ (funext fun a => Fin.ext ?_)
  match a with
  | ⟨0, _⟩ => show win0_1.index t (0 : Fin 2) * 2048 + 1 * k.val = k.val; rw [e2]; omega
  | ⟨1, _⟩ => show win0_1.index t (1 : Fin 2) * 512 + 1 * q.val = q'.val; rw [e3, hq]; omega

/-- What point t writes back is block t of the product of the two arrays as the region found them. -/
theorem flushed_eq (V : (c : Dev nD) → (b : Ref sig .tc) → Buf (Elt Ideal) ((c : Thread nD τ).loc b)) (c : Dev nD)
    (t : Fin cfg0.N) :
    (dat0 (F := Ideal) V c).flushed 2 t
      = ((cfg0.win 2).blk t).view.read (Elt Ideal)
          (Cert.Gcn.matProdArr (N := 50176) (K := 2048) (C := 512) (V c main_v15) (V c main_arg2)) := by
  show (cfg0.win 2).cut (grid0.coords t) ((dat0 V c).after 2 t) = _
  rw [after0_2]
  unfold out0_2
  rw [View.canon_unit_zero hz]
  simp only [View.ld_unit_zero (S := S1024x2048) hz, View.ld_unit_zero (S := S2048x512) hz]
  obtain ⟨-, -, -, -, e4, e5⟩ := idx_facts t
  funext j
  show k0_pay1 (iblk0 V c 0 t) (iblk0 V c 1 t) ((cfg0.win 2).xinj (grid0.coords t) j)
    = Cert.Gcn.matProdArr (N := 50176) (K := 2048) (C := 512) (V c main_v15) (V c main_arg2) (((cfg0.win 2).blk t).view.emb j)
  refine payload_block _ _ _ _ _ _ (fun k => ?_) (fun k => ?_)
  · refine lhs_block_read V c t _ k _ ?_
    show win0_2.index t (0 : Fin 2) * 1024 + 1 * (j 0).val = t.val * 1024 + (j 0).val
    rw [e4]; omega
  · refine rhs_block_read V c t k _ _ ?_
    show win0_2.index t (1 : Fin 2) * 512 + 1 * (j 1).val = (j 1).val
    rw [e5]; omega

/-! ## The blocks fill the array -/

/-- An index of the output array is in point t's block iff each coordinate is in the block's range on its axis. -/
theorem mem_blk (t : Fin cfg0.N) (i : S50176x512.Idx) :
    i ∈ ((cfg0.win 2).blk t).view.set ↔ ∀ a : Fin 2, win0_2.index t a * S1024x512.size a ≤ (i a).val
      ∧ (i a).val < win0_2.index t a * S1024x512.size a + S1024x512.size a := by
  show i ∈ ((View.whole main_v16).slice (win0_2.rect t)).set ↔ _
  rw [View.set_slice_whole, Rect.mem_set_unit]
  exact Iff.rfl

/-- Every index of the output array is in the block of the point its row falls to: row r is in block r / 1024,
    and 49 blocks of 1024 rows are the 50176 rows. -/
theorem cover (i : S50176x512.Idx) :
    ∃ t : Fin cfg0.N, (cfg0.win 2).flush t = true ∧ i ∈ ((cfg0.win 2).blk t).view.set := by
  have hi0 : (i 0).val < 50176 := (i 0).isLt
  have hi1 : (i 1).val < 512 := (i 1).isLt
  have hN : cfg0.N = 49 := N_0
  obtain ⟨t, ht⟩ : ∃ t : Fin cfg0.N, t.val = (i 0).val / 1024 :=
    ⟨⟨(i 0).val / 1024, lt_of_lt_of_eq (by omega : (i 0).val / 1024 < 49) hN.symm⟩, rfl⟩
  obtain ⟨-, -, -, -, e4, e5⟩ := idx_facts t
  refine ⟨t, flush0_2 t, ?_⟩
  rw [mem_blk]
  intro a
  match a with
  | ⟨0, _⟩ =>
    show win0_2.index t (0 : Fin 2) * 1024 ≤ (i 0).val ∧ (i 0).val < win0_2.index t (0 : Fin 2) * 1024 + 1024
    rw [e4, ht]; omega
  | ⟨1, _⟩ =>
    show win0_2.index t (1 : Fin 2) * 512 ≤ (i 1).val ∧ (i 1).val < win0_2.index t (1 : Fin 2) * 512 + 512
    rw [e5]; omega

/-- After the region, its output array is the matrix product of the two input arrays as the region found them. -/
theorem final (V : (c : Dev nD) → (b : Ref sig .tc) → Buf (Elt Ideal) ((c : Thread nD τ).loc b)) (c : Dev nD) :
    (dat0 (F := Ideal) V c).arrAt 2 cfg0.N
      = Cert.Gcn.matProdArr (N := 50176) (K := 2048) (C := 512) (V c main_v15) (V c main_arg2) :=
  (dat0 (F := Ideal) V c).arrAt_eq_of_cover 2 _ (fun t _ => flushed_eq V c t) cover

end Cert.KernelIdeal.Region0

end
-- ==== Proof.KMatmul.lean ====
/-
  The first region's result, read from the launch memory.

  Before the first region the host pads the node features [50000, 2048] with 176 further rows to [50176, 2048]; the
  weights [2048, 512] reach the region as launched. The region leaves the product of the padded features and the
  weights (Region0.final), and the host then cuts the last 176 rows off it.

  • A row of the padded array below the padding is the row of the array (pad_rows_apply); the padding stretch writes
    exactly that into the left array's buffer (after_pad_apply), and no earlier host operation writes the node
    features' or the weights' buffers (w3_arg0, w4_arg2).
  • An entry (n, q) of a product reads row n of the left factor and column q of the right one, so cutting rows off the
    product is the product of the rows kept (slice_prod).
  • Together: the cut product is the product of the node features and the weights as launched (w5_prod).
-/
import proofs.«177750_j30288109371814_2_alg».proof.Proof.Gen.KernelIdeal.Frame
import proofs.«177750_j30288109371814_2_alg».proof.Proof.GcnSpec
import proofs.«177750_j30288109371814_2_alg».proof.Proof.KRegion0
import Idealize.ShloMosaic.Lib.StableHlo.Run
import Idealize.ShloMosaic.Lib.Pipeline.Value
import Idealize.ShloMosaic.Lib.ValueIdx
import Idealize.ShloMosaic.PureOps.Ideal

noncomputable section

namespace Cert.KernelIdeal.KVal

open Cert.KernelIdeal Cert.KernelIdeal.Gen Idealize.ShloMosaic Idealize.ShloMosaic.TcCoe Idealize.SL.Sem Idealize.ShloMosaic.StableHlo Idealize.ShloMosaic.ValueIdx
open scoped BigOperators

variable (m : (ℓ : Loc nD τ sig) → Buf (Elt Ideal) ℓ) (ρ : Dev nD → PrngReg)

/-- A row of the padded array below the padding is the row of the array: rows are added at the end only
    (176 of them), nothing in front, nothing between entries, and no columns. -/
theorem pad_rows_apply (x : S50000x2048.Idx → EReal) (v : S_.Idx → EReal) (n : Fin 50000) (k : Fin 2048) (r : Fin 50176)
    (hr : r.val = n.val) :
    pad S50176x2048 ![0, 0] ![176, 0] ![0, 0] x v pads_S50000x2048_S50176x2048_01760_000 h_S_ (ix2 r k) = x (ix2 n k) := by
  have hn : n.val < 50000 := n.isLt
  have hk : k.val < 2048 := k.isLt
  unfold pad
  dsimp only
  split
  · refine congrArg x (funext fun a => Fin.ext ?_)
    match a with
    | ⟨0, _⟩ => show (r.val - 0) / (0 + 1) = n.val; omega
    | ⟨1, _⟩ => show (k.val - 0) / (0 + 1) = k.val; omega
  · rename_i h
    refine absurd (fun a => ?_) h
    match a with
    | ⟨0, _⟩ => show 0 ≤ r.val ∧ (r.val - 0) % (0 + 1) = 0 ∧ (r.val - 0) / (0 + 1) < 50000; omega
    | ⟨1, _⟩ => show 0 ≤ k.val ∧ (k.val - 0) % (0 + 1) = 0 ∧ (k.val - 0) / (0 + 1) < 2048; omega

/-- The padding stretch leaves, in the left array's buffer, the padded node features: below the padding, row n of
    the buffer is row n of the node features' buffer. -/
theorem after_pad_apply (F : Valuation τ sig (Elt Ideal)) (n : Fin 50000) (k : Fin 2048) (r : Fin 50176) (hr : r.val = n.val) :
    (StableHlo.after hostOps0_3 F (Proc.devRef .tc main_v15) : S50176x2048.Idx → EReal) (ix2 r k)
      = (F (Proc.devRef .tc main_arg0) : S50000x2048.Idx → EReal) (ix2 n k) := by
  after_results
  exact pad_rows_apply _ _ n k r hr

/-- No host operation before the first region writes the node features' buffer. -/
theorem w3_arg0 (c : Dev nD) : W3 m ρ c (Proc.devRef .tc main_arg0) = m ((c.tc : Thread nD τ).loc main_arg0) := by
  show StableHlo.after hostOps0_2 (W2 m ρ c) (Proc.devRef .tc main_arg0) = _
  after_results

/-- No host operation before the first region writes the weights' buffer. -/
theorem w4_arg2 (c : Dev nD) : W4 m ρ c (Proc.devRef .tc main_arg2) = m ((c.tc : Thread nD τ).loc main_arg2) := by
  show StableHlo.after hostOps0_3 (W3 m ρ c) (Proc.devRef .tc main_arg2) = _
  after_results

/-- Cutting the last rows off a product whose left factor agrees with `x` on the rows kept gives the product of
    `x` and the right factor: an entry of a product reads one row of the left factor. -/
theorem slice_prod (A : S50176x2048.Idx → EReal) (B : S2048x512.Idx → EReal) (x : S50000x2048.Idx → EReal)
    (hA : ∀ (n : Fin 50000) (k : Fin 2048) (r : Fin 50176), r.val = n.val → A (ix2 r k) = x (ix2 n k)) :
    extractStridedSlice S50000x512 ![0, 0] (Cert.Gcn.matProdArr (N := 50176) (K := 2048) (C := 512) A B)
        slices_S50176x512_S50000x512_0_0
      = Cert.Gcn.matProdArr (N := 50000) (K := 2048) (C := 512) x B := by
  funext j
  obtain ⟨n, q, rfl⟩ : ∃ (n : Fin 50000) (q : Fin 512), j = ix2 n q := ⟨j 0, j 1, eq_ix2 j⟩
  have hn : n.val < 50000 := n.isLt
  refine (extractStridedSlice_apply _ _ _ (ix2 n q) (ix2 (n0 := 50176) ⟨n.val, by omega⟩ q) (fun a => ?_)).trans ?_
  · match a with
    | ⟨0, _⟩ => show n.val = 0 + n.val; omega
    | ⟨1, _⟩ => show q.val = 0 + q.val; omega
  · unfold Cert.Gcn.matProdArr Cert.Gcn.matProd
    exact Finset.sum_congr rfl fun k _ => congrArg₂ (· * ·) (hA n k ⟨n.val, by omega⟩ rfl) rfl

/-- The first region's product with the padding rows cut off is the product of the node features and the weights as launched. -/
theorem w5_prod (c : Dev nD) :
    extractStridedSlice S50000x512 ![0, 0] (W5 m ρ c (Proc.devRef .tc main_v16)) slices_S50176x512_S50000x512_0_0
      = Cert.Gcn.matProdArr (N := 50000) (K := 2048) (C := 512)
          (m ((c.tc : Thread nD τ).loc main_arg0)) (m ((c.tc : Thread nD τ).loc main_arg2)) := by
  have h5 : W5 m ρ c (Proc.devRef .tc main_v16)
      = Cert.Gcn.matProdArr (N := 50176) (K := 2048) (C := 512) (V4 m ρ c main_v15) (V4 m ρ c main_arg2) :=
    (W5_arr m ρ c 2).trans (Cert.KernelIdeal.Region0.final (V4 m ρ) c)
  refine (congrArg (fun A => extractStridedSlice S50000x512 ![0, 0] A slices_S50176x512_S50000x512_0_0) h5).trans ?_
  refine (slice_prod _ _ (m ((c.tc : Thread nD τ).loc main_arg0)) fun n k r hr => ?_).trans ?_
  · exact (after_pad_apply (W3 m ρ c) n k r hr).trans (congrFun (w3_arg0 m ρ c) (ix2 n k))
  · exact congrArg (Cert.Gcn.matProdArr (N := 50000) (K := 2048) (C := 512) (m ((c.tc : Thread nD τ).loc main_arg0))) (w4_arg2 m ρ c)

end Cert.KernelIdeal.KVal

end
-- ==== Proof.LibKeepdims.lean ====
/-
  A reduction that keeps its axis (a row sum with keepdims), read at an index written by coordinates.

  A row-wise statistic of an `[a, b]` vector — its sum over the lanes — is a vector `[a]`; kept as a column it is
  cast to `[a, 1]` and broadcast back over the `b` lanes.  Three readings make that chain transparent at an
  index `(p, c)`:
  • the lane sum at row `p` is the sum, over `k : Fin b`, of the entries `(p, k)`;
  • the cast `[a] → [a, 1]` reads, at `(i, u)`, the vector at `i` (the unit coordinate `u` carries nothing);
  • the broadcast `[a, 1] → [a, b]` reads, at `(p, c)`, the column's entry of row `p`.
  The row-major position of `(i, u)` in `[a, 1]` is `i · 1 + u = i`, that of `i` in `[a]` is `i`: the cast is the
  identity on positions.  A broadcast keeps a coordinate on an axis of extent other than one and reads `0` on a unit
  axis; when `a = 1` the row coordinate is `0` anyway.
-/
import Idealize.ShloMosaic.Lib.Pipeline.Value
import Idealize.ShloMosaic.Lib.ValueIdx
import Idealize.ShloMosaic.PureOps.Ideal.Laws

namespace Cert.Keepdims

open Idealize.ShloMosaic Idealize.ShloMosaic.ValueIdx
open scoped BigOperators

variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals the sum over the lanes of an `[a, b]` vector, read at row `p`, is the sum of that row's
    entries.  The side conditions are arguments, so the lemma meets a reduction whatever proofs it carries. -/
theorem multiReduction_add_rows {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => ?_
  exact congrArg src (funext fun c => Fin.ext (by match c with | ⟨0, _⟩ => rfl | ⟨1, _⟩ => rfl))

end Cert.Keepdims
-- ==== Proof.KRegion1.lean ====
/-
  The second kernel region: a bias added to every row, then the log-softmax of every row.

  The region walks the 50000 × 512 array in 50 blocks of 1000 whole rows. At point t it holds block t of the input
  array (rows 1000·t … 1000·t + 999, all 512 columns) and the whole one-row bias, and writes back block t of the
  output array. Inside a block the body adds the bias row to every row, takes each row's maximum over the lanes,
  subtracts it, and subtracts the logarithm of the row's sum of exponentials of the entries so shifted.

  • Entry (p, q) of the body's result is the log-softmax, at column q, of row p of (block + bias): the maximum and
    the sum run over the 512 lanes of row p only, so the entry depends on row p of the block and on the bias, and on
    nothing else.
  • Row p of block t is row 1000·t + p of the array (a block's coordinate is block index × block size + the
    coordinate inside the block; the column block index is always 0, and the bias block is always the whole bias).
    Hence what point t writes back is block t of ONE function of the two arrays, the bias-plus-log-softmax array.
  • Row r lies in block r / 1000, and every point writes its block back, so the blocks cover the array and the
    output array ends as that function.
-/
import proofs.«177750_j30288109371814_2_alg».proof.Proof.Gen.KernelIdeal.Frame
import proofs.«177750_j30288109371814_2_alg».proof.Proof.GcnSpec
import proofs.«177750_j30288109371814_2_alg».proof.Proof.LibRowOps
import proofs.«177750_j30288109371814_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.SL.Sem Idealize.ShloMosaic.ValueIdx
open Idealize.ShloMosaic.Pipeline (Dat Cfg Window)
open scoped BigOperators

/-- The column of row maxima, spread back over the lanes, read at an entry: the maximum of that row. -/
theorem rowMaxCol_apply (v : FVec Ideal S1000x512 .f32) (hφ : FKind.Formats .f32)
    (hacc : (0xFF800000#32 : BitVec FTy.f32.bits) = FKind.maximumf.neutral .f32 hφ) (p : Fin 1000) (q : Fin 512) :
    broadcastTo S1000x512
        (shapeCast S1000x1 (multiReduction .maximumf [1] S1000 v 0xFF800000#32 reduces_S1000x512_S1000 hφ hacc)
          shapeCasts_S1000_S1000x1) broadcasts_S1000x1_S1000x512 (ix2 p q)
      = Cert.Gcn.rowMax (fun k : Fin 512 => v (ix2 p k)) :=
  (Cert.Keepdims.broadcastTo_a1_ab_apply _ broadcasts_S1000x1_S1000x512 p q).trans
    ((Cert.Keepdims.shapeCast_a_a1_apply _ shapeCasts_S1000_S1000x1 p (0 : Fin 1)).trans
      (Cert.RowOps.multiReduction_max_rows v 0xFF800000#32 reduces_S1000x512_S1000 hφ hacc p))

/-- The column of logarithms of the row sums, spread back over the lanes, read at an entry. -/
theorem logSumCol_apply (w : FVec Ideal S1000x512 .f32) (hφ : FKind.Formats .f32)
    (hacc : (0x00000000#32 : BitVec FTy.f32.bits) = FKind.add.neutral .f32 hφ) (p : Fin 1000) (q : Fin 512) :
    broadcastTo S1000x512
        (log (shapeCast S1000x1 (multiReduction .add [1] S1000 w 0x00000000#32 reduces_S1000x512_S1000 hφ hacc)
          shapeCasts_S1000_S1000x1)) broadcasts_S1000x1_S1000x512 (ix2 p q)
      = Ideal.log (∑ k : Fin 512, w (ix2 p k)) :=
  (Cert.Keepdims.broadcastTo_a1_ab_apply _ broadcasts_S1000x1_S1000x512 p q).trans
    (congrArg Ideal.log
      ((Cert.Keepdims.shapeCast_a_a1_apply _ shapeCasts_S1000_S1000x1 p (0 : Fin 1)).trans
        (Cert.Keepdims.multiReduction_add_rows w 0x00000000#32 reduces_S1000x512_S1000 hφ hacc p)))

/-- A block less its rows' maxima, less the logarithms of the rows' sums of exponentials, is the log-softmax of the
    block's rows: entry (p, q) depends on row p only. -/
theorem logSoftmax_of_block (v : FVec Ideal S1000x512 .f32) (hφ : FKind.Formats .f32)
    (hmax : (0xFF800000#32 : BitVec FTy.f32.bits) = FKind.maximumf.neutral .f32 hφ)
    (hadd : (0x00000000#32 : BitVec FTy.f32.bits) = FKind.add.neutral .f32 hφ) (p : Fin 1000) (q : Fin 512) :
    subf
      (subf v (broadcastTo S1000x512
        (shapeCast S1000x1 (multiReduction .maximumf [1] S1000 v 0xFF800000#32 reduces_S1000x512_S1000 hφ hmax)
          shapeCasts_S1000_S1000x1) broadcasts_S1000x1_S1000x512))
      (broadcastTo S1000x512
        (log (shapeCast S1000x1
          (multiReduction .add [1] S1000
            (exp (subf v (broadcastTo S1000x512
              (shapeCast S1000x1 (multiReduction .maximumf [1] S1000 v 0xFF800000#32 reduces_S1000x512_S1000 hφ hmax)
                shapeCasts_S1000_S1000x1) broadcasts_S1000x1_S1000x512)))
            0x00000000#32 reduces_S1000x512_S1000 hφ hadd)
          shapeCasts_S1000_S1000x1)) broadcasts_S1000x1_S1000x512)
      (ix2 p q)
      = Cert.Gcn.logSoftmax (fun (n : Fin 1000) (c : Fin 512) => v (ix2 n c)) p q := by
  have hM : ∀ k : Fin 512, broadcastTo S1000x512
        (shapeCast S1000x1 (multiReduction .maximumf [1] S1000 v 0xFF800000#32 reduces_S1000x512_S1000 hφ hmax)
          shapeCasts_S1000_S1000x1) broadcasts_S1000x1_S1000x512 (ix2 p k)
      = Cert.Gcn.rowMax (fun k : Fin 512 => v (ix2 p k)) := fun k => rowMaxCol_apply v hφ hmax p k
  unfold Cert.Gcn.logSoftmax
  refine (subf_apply _ _ _).trans ?_
  refine congrArg₂ (· - ·) ((subf_apply _ _ _).trans (congrArg (v (ix2 p q) - ·) (hM q))) ?_
  refine (logSumCol_apply _ hφ hadd p q).trans (congrArg Ideal.log (Finset.sum_congr rfl fun k _ => ?_))
  exact congrArg Ideal.exp ((subf_apply _ _ _).trans (congrArg (v (ix2 p k) - ·) (hM k)))

/-- The body's result at an entry: the log-softmax of the block plus the one-row bias. -/
theorem pay_apply (x0 : Vec Ideal S1000x512 .f32) (x1 : Vec Ideal S1x512 .f32) (p : Fin 1000) (q : Fin 512) :
    k1_pay1 x0 x1 (ix2 p q) = Cert.Gcn.logSoftmax (fun n c => x0 (ix2 n c) + x1 (ix2 (0 : Fin 1) c)) p q := by
  unfold k1_pay1
  refine (logSoftmax_of_block _ _ _ _ p q).trans ?_
  refine congrArg (fun f => Cert.Gcn.logSoftmax f p q) (funext fun n => funext fun c => ?_)
  refine (addf_apply _ _ _).trans ?_
  rw [shapeCast_self, shapeCast_self, shapeCast_self]
  exact congrArg (x0 (ix2 n c) + ·) (broadcastTo_1b_ab_apply x1 broadcasts_S1x512_S1000x512 n c)

/-- The log-softmax of a row depends on that row only. -/
theorem logSoftmax_congr_row {N N' C : ℕ} (v : Fin N → Fin C → EReal) (v' : Fin N' → Fin C → EReal) (n : Fin N) (n' : Fin N')
    (h : ∀ k, v n k = v' n' k) (c : Fin C) : Cert.Gcn.logSoftmax v n c = Cert.Gcn.logSoftmax v' n' c := by
  have e : v n = v' n' := funext h
  unfold Cert.Gcn.logSoftmax
  rw [e]

/-- The body's result at entry (p, q) of a block whose row p is row r of the array and whose bias row is the array's:
    the array function at (r, q). -/
theorem pay_eq_arr (x0 : Vec Ideal S1000x512 .f32) (x1 : Vec Ideal S1x512 .f32)
    (a : (⟨2, ![50000, 512]⟩ : Shape).Idx → EReal) (b : (⟨2, ![1, 512]⟩ : Shape).Idx → EReal)
    (p : Fin 1000) (q : Fin 512) (r : Fin 50000)
    (h0 : ∀ k : Fin 512, x0 (ix2 p k) = a (ix2 r k)) (h1 : ∀ k : Fin 512, x1 (ix2 (0 : Fin 1) k) = b (ix2 (0 : Fin 1) k)) :
    k1_pay1 x0 x1 (ix2 p q) = Cert.Gcn.biasLogSoftmaxArr a b (ix2 r q) := by
  rw [pay_apply]
  show _ = Cert.Gcn.logSoftmax (fun n c => a (ix2 n c) + b (ix2 (0 : Fin 1) c)) r q
  exact logSoftmax_congr_row _ _ p r (fun k => by rw [h0 k, h1 k]) q

/-- The zero offsets of a whole-block access, as a constant function. -/
theorem zero_offsets : (![0, 0] : Fin 2 → Nat) = fun _ => 0 := funext fun a => by fin_cases a <;> rfl

/-- The block-index maps over the grid: at point t windows 0 and 2 sit at block (t, 0), window 1 at block (0, 0). -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- What point t writes back is block t of the bias-plus-log-softmax of the two arrays as the region found them. -/
theorem writeback_eq (c : Dev nD) (t : Fin cfg1.N) :
    (dat1 (F := Ideal) V c).flushed 2 t
      = ((cfg1.win 2).blk t).view.read (Elt Ideal)
          (Cert.Gcn.biasLogSoftmaxArr (N := 50000) (C := 512) (V c main_v33) (V c main_v34)) := by
  show (cfg1.win 2).cut (grid1.coords t) ((dat1 V c).after 2 t) = _
  rw [after1_2]
  unfold out1_2
  rw [View.canon_unit_zero zero_offsets]
  simp only [View.ld_unit_zero (S := S1000x512) zero_offsets, View.ld_unit_zero (S := S1x512) zero_offsets]
  obtain ⟨e00, e01, e10, e11, e20, e21⟩ := block_indices t
  have ht : t.val < 50 := lt_of_lt_of_eq t.isLt N_1
  refine funext fun (j : S1000x512.Idx) => ?_
  obtain ⟨p, q, rfl⟩ : ∃ (p : Fin 1000) (q : Fin 512), j = ix2 p q := ⟨j 0, j 1, eq_ix2 j⟩
  have hp : p.val < 1000 := p.isLt
  have hr : t.val * 1000 + p.val < 50000 := by omega
  show k1_pay1 (iblk1 V c 0 t) (iblk1 V c 1 t) (ix2 p q)
      = Cert.Gcn.biasLogSoftmaxArr (N := 50000) (C := 512) (V c main_v33) (V c main_v34)
          (((cfg1.win 2).blk t).view.emb (ix2 p q))
  have hemb : ((cfg1.win 2).blk t).view.emb (ix2 p q) = ix2 (⟨t.val * 1000 + p.val, hr⟩ : Fin 50000) q := by
    funext a; apply Fin.ext
    match a with
    | ⟨0, _⟩ => show win1_2.index t (0 : Fin 2) * 1000 + 1 * p.val = t.val * 1000 + p.val; rw [e20]; omega
    | ⟨1, _⟩ => show win1_2.index t (1 : Fin 2) * 512 + 1 * q.val = q.val; rw [e21]; omega
  refine Eq.trans ?_ (congrArg (Cert.Gcn.biasLogSoftmaxArr (N := 50000) (C := 512) (V c main_v33) (V c main_v34)) hemb.symm)
  refine pay_eq_arr (iblk1 V c 0 t) (iblk1 V c 1 t) (V c main_v33) (V c main_v34) p q ⟨t.val * 1000 + p.val, hr⟩
    (fun k => ?_) (fun k => ?_)
  · show V c main_v33 (((cfg1.win 0).blk t).view.emb (ix2 p k)) = V c main_v33 (ix2 (⟨t.val * 1000 + p.val, hr⟩ : Fin 50000) k)
    refine congrArg (V c main_v33) (funext fun a => Fin.ext ?_)
    match a with
    | ⟨0, _⟩ => show win1_0.index t (0 : Fin 2) * 1000 + 1 * p.val = t.val * 1000 + p.val; rw [e00]; omega
    | ⟨1, _⟩ => show win1_0.index t (1 : Fin 2) * 512 + 1 * k.val = k.val; rw [e01]; omega
  · show V c main_v34 (((cfg1.win 1).blk t).view.emb (ix2 (0 : Fin 1) k)) = V c main_v34 (ix2 (0 : Fin 1) k)
    refine congrArg (V c main_v34) (funext fun a => Fin.ext ?_)
    match a with
    | ⟨0, _⟩ => show win1_1.index t (0 : Fin 2) * 1 + 1 * 0 = 0; rw [e10]
    | ⟨1, _⟩ => show win1_1.index t (1 : Fin 2) * 512 + 1 * k.val = k.val; rw [e11]; omega

/-- An index of the array is in point t's block iff each coordinate is in the block's range on its axis. -/
theorem mem_block (t : Fin cfg1.N) (i : S50000x512.Idx) :
    i ∈ ((cfg1.win 2).blk t).view.set
      ↔ ∀ a : Fin 2, win1_2.index t a * S1000x512.size a ≤ (i a).val
          ∧ (i a).val < win1_2.index t a * S1000x512.size a + S1000x512.size a := by
  show i ∈ ((View.whole main_v35).slice (win1_2.rect t)).set ↔ _
  rw [View.set_slice_whole, Rect.mem_set_unit]
  exact Iff.rfl

/-- Every index of the array is in the block of the point its row falls in: row r is in block r / 1000, and every
    point writes its block back. -/
theorem rows_covered (i : S50000x512.Idx) :
    ∃ t : Fin cfg1.N, (cfg1.win 2).flush t = true ∧ i ∈ ((cfg1.win 2).blk t).view.set := by
  have hi0 : (i 0).val < 50000 := (i 0).isLt
  have hi1 : (i 1).val < 512 := (i 1).isLt
  have hN : cfg1.N = 50 := N_1
  obtain ⟨t, ht⟩ : ∃ t : Fin cfg1.N, t.val = (i 0).val / 1000 := ⟨⟨(i 0).val / 1000, by rw [hN]; omega⟩, rfl⟩
  obtain ⟨-, -, -, -, e20, e21⟩ := block_indices t
  refine ⟨t, flush1_2 t, ?_⟩
  rw [mem_block]
  intro a
  match a with
  | ⟨0, _⟩ =>
    show win1_2.index t (0 : Fin 2) * 1000 ≤ (i 0).val ∧ (i 0).val < win1_2.index t (0 : Fin 2) * 1000 + 1000
    rw [e20, ht]; omega
  | ⟨1, _⟩ =>
    show win1_2.index t (1 : Fin 2) * 512 ≤ (i 1).val ∧ (i 1).val < win1_2.index t (1 : Fin 2) * 512 + 512
    rw [e21]; omega

/-- After the region, its output array is the bias-plus-log-softmax of the two input arrays as the region found them. -/
theorem final (V : (c : Dev nD) → (b : Ref sig .tc) → Buf (Elt Ideal) ((c : Thread nD τ).loc b)) (c : Dev nD) :
    (dat1 (F := Ideal) V c).arrAt 2 cfg1.N
      = Cert.Gcn.biasLogSoftmaxArr (N := 50000) (C := 512) (V c main_v33) (V c main_v34) :=
  (dat1 V c).arrAt_eq_of_cover 2 _ (fun t _ => writeback_eq V c t) rows_covered

end Cert.KernelIdeal.Region1

end
-- ==== Proof.LibSegmentSum.lean ====
/-
  SEGMENT SUMS AS SCATTERS, READ AT AN ENTRY.

  A segment sum adds every row of an array of updates into the row of the operand that an integer array of segment
  ids names for it. As a scatter with an addition body it comes in two forms:

  * ROWS: operand of shape [N, C], scatter indices [E, 1], updates [E, C]; the updates' axis 1 is the window
    axis, the operand's axis 0 is the inserted window axis and the axis the one index component addresses, and the
    index vector lies along axis 1 of the scatter indices;
  * FLAT: operand [N], scatter indices [E, 1], updates [E]; no window axis, the operand's only axis inserted
    and addressed by the index component.

  At the ideal instance (elements are extended reals) the accumulating scatter is an exact sum: every operand element
  plus the sum of the update elements whose result index is that element. Here the result index of update element
  (e, c) is (idx[e, 0], c) — the start index idx[e, 0] read as a SIGNED integer and NOT clamped, plus the window
  coordinate c on axis 1 — and an update whose result index is outside the operand (a negative id, or an id that is
  N or more) is DROPPED: it contributes nothing. So the scatter read at entry (r, c) is the operand's entry plus the
  sum, over the update rows e whose id idx[e, 0] is r as a signed integer, of the updates' entries (e, c); the flat
  form likewise without the column.
-/
import Idealize.ShloMosaic.PureOps.Ideal
import Idealize.ShloMosaic.Lib.ValueIdx

noncomputable section

open scoped BigOperators

namespace Idealize.ShloMosaic.SegmentSum

open Idealize.ShloMosaic Idealize.ShloMosaic.ValueIdx

/-! ## The result index of an update, for any dimension numbers -/

/-- An update index j lands on operand index i exactly when, on every operand axis, the window's start (signed,
    not clamped) plus the window coordinate is i's coordinate: inside the operand, the result index is that sum; a
    sum outside the operand on some axis gives no result index at all. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · next h =>
    rw [Option.some.injEq]
    constructor
    · intro hE a
      have h1 := congrArg Fin.val (congrFun hE a)
      simp only at h1
      have h2 := h a
      omega
    · intro hE
      funext a
      apply Fin.ext
      simp only
      have h2 := hE a
      omega
  · next h =>
    constructor
    · intro hE
      exact absurd hE (by simp)
    · intro hE
      exfalso
      apply h
      intro a
      have h2 := hE a
      have h3 := (i a).isLt
      omega

/-- The operand's kept axes are the ones that are not inserted window axes. -/
theorem mem_sKept {s si u : Shape} (d : ScatterDims s si u) (a : Fin s.rank) :
    a ∈ d.sKept ↔ a ∉ d.insertedWindowDims := by
  simp [ScatterDims.sKept, Shape.kept, List.mem_filter, List.mem_finRange]

/-- Of two axes, the second is not the first. -/
theorem fin2_one_ne_zero : ¬ (1 : Fin 2) = 0 := by decide

/-! ## Rows: operand [N, C], scatter indices [E, 1], updates [E, C] -/

/-- The dimension numbers of the row form: the updates' axis 1 is the window axis, the operand's axis 0 is inserted
    and is the axis the index component addresses, the index vector lies along axis 1 of the scatter indices. Their
    conditions wf are decided on a program's literal shapes. -/
abbrev rowDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Rows
variable {N C E w : Nat} (wf : ScatterDims.WF ⟨2, ![N, C]⟩ ⟨2, ![E, 1]⟩ ⟨2, ![E, C]⟩ [1] [0] [0] 1)

/-- On the operand's row axis the window of update (e, c) starts at the id idx[e, 0], read signed. -/
theorem rowDims_start_zero (j : (⟨2, ![E, C]⟩ : Shape).Idx) (idx : IVec ⟨2, ![E, 1]⟩ w) :
    (rowDims N C E wf).start j idx 0 = (idx (ix2 (j 0) (0 : Fin 1))).toInt := by
  unfold ScatterDims.start
  rw [dif_pos (show (0 : Fin 2) ∈ (rowDims N C E wf).scatterDimsToOperandDims from List.mem_singleton.mpr rfl)]
  have hsi : (rowDims N C E wf).siIdx j ⟨List.idxOf (0 : Fin 2) (rowDims N C E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the column axis, which the index component does not address, the window starts at 0. -/
theorem rowDims_start_one (j : (⟨2, ![E, C]⟩ : Shape).Idx) (idx : IVec ⟨2, ![E, 1]⟩ w) :
    (rowDims N C E wf).start j idx 1 = 0 := by
  unfold ScatterDims.start
  rw [dif_neg (show ¬ (1 : Fin 2) ∈ (rowDims N C E wf).scatterDimsToOperandDims from
    fun h => absurd (List.mem_singleton.mp h) fin2_one_ne_zero)]

/-- The row axis is inserted: the window coordinate on it is 0. -/
theorem rowDims_window_zero (j : (⟨2, ![E, C]⟩ : Shape).Idx) : (rowDims N C E wf).window j 0 = 0 := by
  unfold ScatterDims.window
  rw [dif_neg (show ¬ (0 : Fin 2) ∈ (rowDims N C E wf).sKept from
    fun h => (mem_sKept _ _).mp h (List.mem_singleton.mpr rfl))]

/-- On the column axis the window coordinate of update (e, c) is c. -/
theorem rowDims_window_one (j : (⟨2, ![E, C]⟩ : Shape).Idx) : (rowDims N C E wf).window j 1 = (j 1).val := by
  unfold ScatterDims.window
  rw [dif_pos (show (1 : Fin 2) ∈ (rowDims N C E wf).sKept from
    (mem_sKept _ _).mpr (fun h => absurd (List.mem_singleton.mp h) fin2_one_ne_zero))]
  rfl

end Rows

section RowsApply
variable {N C E w : Nat} (wf : ScatterDims.WF ⟨2, ![N, C]⟩ ⟨2, ![E, 1]⟩ ⟨2, ![E, C]⟩ [1] [0] [0] 1)

/-- Update element (e, c') lands on operand entry (r, c) exactly when the id idx[e, 0], read signed, is r and
    c' = c. An id that is negative, or N or more, is no row's: such an update lands nowhere. -/
theorem rowDims_resultIdx?_eq_some_iff (j : (⟨2, ![E, C]⟩ : Shape).Idx) (idx : IVec ⟨2, ![E, 1]⟩ w)
    (i : (⟨2, ![N, C]⟩ : Shape).Idx) :
    (rowDims N C E wf).resultIdx? j idx = some i ↔
      (idx (ix2 (j 0) (0 : Fin 1))).toInt = ((i 0).val : Int) ∧ (j 1).val = (i 1).val := by
  rw [resultIdx?_eq_some_iff, Fin.forall_fin_two, rowDims_start_zero, rowDims_start_one, rowDims_window_zero,
    rowDims_window_one]
  constructor
  · rintro ⟨h0, h1⟩
    exact ⟨by omega, by omega⟩
  · rintro ⟨h0, h1⟩
    exact ⟨by omega, by omega⟩

/-- THE ROW SCATTER READ AT ENTRY (r, c): the operand's entry plus the sum, over the update rows e whose id
    idx[e, 0] is r as a signed integer, of the updates' entries (e, c). Rows whose id is negative or at least N
    appear in no entry's sum: they are dropped. -/
theorem scatterAdd_rows_apply {φ : FTy} (x : FVec Ideal ⟨2, ![N, C]⟩ φ) (idx : IVec ⟨2, ![E, 1]⟩ w)
    (upd : FVec Ideal ⟨2, ![E, C]⟩ φ) (r : Fin N) (c : Fin C) :
    Host.scatterAdd (rowDims N C E wf) x idx upd (ix2 r c) =
      x (ix2 r c) + ∑ e ∈ Finset.univ.filter (fun e : Fin E => (idx (ix2 e (0 : Fin 1))).toInt = (r.val : Int)),
        upd (ix2 e c) := by
  show x (ix2 r c) + ∑ j ∈ Finset.univ.filter
      (fun j => (rowDims N C E wf).resultIdx? j idx = some (ix2 r c)), upd j = _
  congr 1
  refine Finset.sum_nbij' (fun j => j 0) (fun e => ix2 e c) ?_ ?_ ?_ ?_ ?_
  · intro j hj
    rw [Finset.mem_filter, rowDims_resultIdx?_eq_some_iff] at hj
    exact Finset.mem_filter.mpr ⟨Finset.mem_univ _, hj.2.1⟩
  · intro e he
    rw [Finset.mem_filter] at he
    exact Finset.mem_filter.mpr
      ⟨Finset.mem_univ _, (rowDims_resultIdx?_eq_some_iff wf (ix2 e c) idx (ix2 r c)).mpr ⟨he.2, rfl⟩⟩
  · intro j hj
    rw [Finset.mem_filter, rowDims_resultIdx?_eq_some_iff] at hj
    funext a
    match a with
    | ⟨0, _⟩ => rfl
    | ⟨1, _⟩ => exact Fin.ext hj.2.2.symm
  · intro e _
    rfl
  · intro j hj
    rw [Finset.mem_filter, rowDims_resultIdx?_eq_some_iff] at hj
    congr 1
    funext a
    match a with
    | ⟨0, _⟩ => rfl
    | ⟨1, _⟩ => exact Fin.ext hj.2.2

end RowsApply

/-! ## Flat: operand [N], scatter indices [E, 1], updates [E] -/

/-- The dimension numbers of the flat form: the updates have no window axis, the operand's only axis is inserted and
    is the axis the index component addresses, the index vector lies along axis 1 of the scatter indices. Their
    conditions wf are decided on a program's literal shapes. -/
abbrev flatDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Flat
variable {N E w : Nat} (wf : ScatterDims.WF ⟨1, ![N]⟩ ⟨2, ![E, 1]⟩ ⟨1, ![E]⟩ [] [0] [0] 1)

/-- On the operand's one axis the window of update e starts at the id idx[e, 0], read signed. -/
theorem flatDims_start_zero (j : (⟨1, ![E]⟩ : Shape).Idx) (idx : IVec ⟨2, ![E, 1]⟩ w) :
    (flatDims N E wf).start j idx 0 = (idx (ix2 (j 0) (0 : Fin 1))).toInt := by
  unfold ScatterDims.start
  rw [dif_pos (show (0 : Fin 1) ∈ (flatDims N E wf).scatterDimsToOperandDims from List.mem_singleton.mpr rfl)]
  have hsi : (flatDims N E wf).siIdx j ⟨List.idxOf (0 : Fin 1) (flatDims N E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The operand's one axis is inserted: the window coordinate on it is 0. -/
theorem flatDims_window_zero (j : (⟨1, ![E]⟩ : Shape).Idx) : (flatDims N E wf).window j 0 = 0 := by
  unfold ScatterDims.window
  rw [dif_neg (show ¬ (0 : Fin 1) ∈ (flatDims N E wf).sKept from
    fun h => (mem_sKept _ _).mp h (List.mem_singleton.mpr rfl))]

/-- Update element e lands on operand entry r exactly when the id idx[e, 0], read signed, is r. An id that is
    negative, or N or more, is no entry's: such an update lands nowhere. -/
theorem flatDims_resultIdx?_eq_some_iff (j : (⟨1, ![E]⟩ : Shape).Idx) (idx : IVec ⟨2, ![E, 1]⟩ w)
    (i : (⟨1, ![N]⟩ : Shape).Idx) :
    (flatDims N E wf).resultIdx? j idx = some i ↔ (idx (ix2 (j 0) (0 : Fin 1))).toInt = ((i 0).val : Int) := by
  rw [resultIdx?_eq_some_iff, Fin.forall_fin_one, flatDims_start_zero, flatDims_window_zero]
  constructor
  · intro h0
    omega
  · intro h0
    omega

/-- THE FLAT SCATTER READ AT ENTRY r: the operand's entry plus the sum, over the update positions e whose id
    idx[e, 0] is r as a signed integer, of the updates' entries e. Positions whose id is negative or at least N
    appear in no entry's sum: they are dropped. -/
theorem scatterAdd_flat_apply {φ : FTy} (x : FVec Ideal ⟨1, ![N]⟩ φ) (idx : IVec ⟨2, ![E, 1]⟩ w)
    (upd : FVec Ideal ⟨1, ![E]⟩ φ) (r : Fin N) :
    Host.scatterAdd (flatDims N E wf) x idx upd (ix1 r) =
      x (ix1 r) + ∑ e ∈ Finset.univ.filter (fun e : Fin E => (idx (ix2 e (0 : Fin 1))).toInt = (r.val : Int)),
        upd (ix1 e) := by
  show x (ix1 r) + ∑ j ∈ Finset.univ.filter
      (fun j => (flatDims N E wf).resultIdx? j idx = some (ix1 r)), upd j = _
  congr 1
  refine Finset.sum_nbij' (fun j => j 0) (fun e => ix1 e) ?_ ?_ ?_ ?_ ?_
  · intro j hj
    rw [Finset.mem_filter, flatDims_resultIdx?_eq_some_iff] at hj
    exact Finset.mem_filter.mpr ⟨Finset.mem_univ _, hj.2⟩
  · intro e he
    rw [Finset.mem_filter] at he
    exact Finset.mem_filter.mpr
      ⟨Finset.mem_univ _, (flatDims_resultIdx?_eq_some_iff wf (ix1 e) idx (ix1 r)).mpr he.2⟩
  · intro j _
    funext a
    match a with
    | ⟨0, _⟩ => rfl
  · intro e _
    rfl
  · intro j _
    congr 1
    funext a
    match a with
    | ⟨0, _⟩ => rfl

end Flat

end Idealize.ShloMosaic.SegmentSum

end
-- ==== Proof.LibGatherRows.lean ====
/-
  GATHERING BY ID, READ AT AN ENTRY.

  Indexing an array by an integer array of ids, x[ids], is a gather whose start index has one component, the id,
  addressing the operand's axis 0, which is collapsed. It comes in two forms:

  * ROWS: operand of shape [N, C], start indices [E, 1], result [E, C]; the result's axis 1 is the offset axis and
    runs over the operand's columns (the slice is one whole row, of sizes [1, C]), the index vector lies along axis 1
    of the start indices;
  * FLAT: operand [N], start indices [E, 1], result [E]; no offset axis, slices of size [1].

  A gather clamps every start index so that the slice fits: the id ids[e, 0] is read as a SIGNED integer, a negative
  one becomes 0, and one above N − 1 becomes N − 1. So the row form read at entry (e, c) is the operand at
  (min (max id 0) (N − 1), c), and the flat form read at e is the operand at min (max id 0) (N − 1). (For a signed
  integer z the natural number z.toNat is max z 0.)
-/
import Idealize.ShloMosaic.PureOps.Ideal
import Idealize.ShloMosaic.Lib.ValueIdx

noncomputable section

namespace Idealize.ShloMosaic.GatherRows

open Idealize.ShloMosaic Idealize.ShloMosaic.ValueIdx

variable {α : Type}

/-- Of two axes, the second is not the first. -/
theorem fin2_one_ne_zero : ¬ (1 : Fin 2) = 0 := by decide

/-! ## Rows: operand [N, C], start indices [E, 1], result [E, C] -/

/-- The dimension numbers of the row form. Their conditions wf are decided on a program's literal shapes. -/
abbrev rowDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT ENTRY (e, c): the operand's entry (r, c), where r is the id ids[e, 0] read signed and
    clamped into [0, N − 1]. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowDims N C E wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ =>
    show (rowDims N C E wf).start (ix2 e c) idx 0 + (rowDims N C E wf).batchCoord (ix2 e c) 0
      + (rowDims N C E wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C E wf).startIndexMap from List.mem_singleton.mpr rfl)]
    have hsi : (rowDims N C E wf).siIdx (ix2 e c) ⟨List.idxOf (0 : Fin 2) (rowDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N C E wf).start (ix2 e c) idx 1 + (rowDims N C E wf).batchCoord (ix2 e c) 1
      + (rowDims N C E wf).offCoord (ix2 e c) 1 = c.val
    rw [GatherDims.batchCoord_eq_zero _ _ _ List.not_mem_nil]
    unfold GatherDims.start
    rw [dif_neg (show ¬ (1 : Fin 2) ∈ (rowDims N C E wf).startIndexMap from
      fun h => absurd (List.mem_singleton.mp h) fin2_one_ne_zero)]
    unfold GatherDims.offCoord
    rw [dif_pos (show (1 : Fin 2) ∈ (rowDims N C E wf).sKept from
      (GatherDims.mem_sKept _ _).mpr ⟨fun h => absurd (List.mem_singleton.mp h) fin2_one_ne_zero, List.not_mem_nil⟩)]
    simp only [Nat.zero_add]
    rfl

/-! ## Flat: operand [N], start indices [E, 1], result [E] -/

/-- The dimension numbers of the flat form. Their conditions wf are decided on a program's literal shapes. -/
abbrev flatDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE FLAT GATHER READ AT e: the operand's entry r, where r is the id ids[e, 0] read signed and clamped into
    [0, N − 1]. -/
theorem gather_flat_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (flatDims N E wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (flatDims N E wf).start (ix1 e) idx 0 + (flatDims N E wf).batchCoord (ix1 e) 0
    + (flatDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N E wf).startIndexMap from List.mem_singleton.mpr rfl)]
  have hsi : (flatDims N E wf).siIdx (ix1 e) ⟨List.idxOf (0 : Fin 1) (flatDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Idealize.ShloMosaic.GatherRows

end
-- ==== Proof.GcnStages.lean ====
/-
  The host stages of the graph-convolution layer, read at an entry, over arrays that are left abstract.

  • The degree factor: where the degree is positive its inverse square root, elsewhere zero. Whatever the degree is
    (a positive real, +∞, anything), the factor is a nonnegative real number (degFactor_nonneg).
  • An id that adds into row n (read signed it is n, so it is not negative) is, once negative ids have had the number
    of rows added and the result is clamped into the rows, again n (clampRow_of_target).
  • The scaled arrangement: the rows scaled by the factors, gathered by the source ids, added into the rows named by
    the target ids, and the sums scaled again (scaled_stage) is Cert.Gcn.aggScaled.
  • The per-edge arrangement: the rows gathered by the source ids, each weighed by the product of the factors
    gathered at its source id and at its target id, and added into the rows named by the target ids
    (perEdge_stage) is Cert.Gcn.aggPerEdge.
-/
import Idealize.ShloMosaic.PureOps.Ideal
import Idealize.ShloMosaic.Lib.ValueIdx
import proofs.«177750_j30288109371814_2_alg».proof.Proof.GcnSpec
import proofs.«177750_j30288109371814_2_alg».proof.Proof.LibSegmentSum
import proofs.«177750_j30288109371814_2_alg».proof.Proof.LibGatherRows

noncomputable section

open scoped BigOperators

namespace Cert.Gcn

open Idealize.ShloMosaic Idealize.ShloMosaic.ValueIdx

/-- The inverse square root of a positive extended real is a nonnegative real: of +∞ it is 0. -/
theorem rsqrt_nonneg_real (d : EReal) (h : 0 < d) : ∃ r : ℝ, 0 ≤ r ∧ Ideal.rsqrt d = (r : EReal) := by
  induction d using EReal.rec with
  | bot => exact absurd h (by simp)
  | top => exact ⟨0, le_rfl, by simp⟩
  | coe r =>
    have hr : 0 < r := by exact_mod_cast h
    refine ⟨(Real.sqrt r)⁻¹, inv_nonneg.mpr (Real.sqrt_nonneg r), ?_⟩
    rw [Ideal.rsqrt_coe, if_neg (not_lt.mpr hr.le), if_neg hr.ne']

/-- The degree factor is a nonnegative real at every node. -/
theorem degFactor_nonneg {N : ℕ} (deg zeros zeros' : FVec Ideal ⟨1, ![N]⟩ .f32) (hz : ∀ i, zeros i = 0)
    (hz' : ∀ i, zeros' i = 0) (i : (⟨1, ![N]⟩ : Shape).Idx) :
    ∃ r : ℝ, 0 ≤ r ∧ select (cmpf .ogt deg zeros) (Host.rsqrt deg) zeros' i = (r : EReal) := by
  rw [select_apply, cmpf_apply, hz, hz']
  show ∃ r : ℝ, 0 ≤ r ∧ Scalar.select (Ideal.cmp .ogt (deg i) 0) (Ideal.rsqrt (deg i)) 0 = (r : EReal)
  generalize deg i = d
  by_cases h : (0 : EReal) < d
  · have hb : Ideal.cmp .ogt d 0 = 1#1 := by simp [Ideal.cmp, h]
    rw [hb, select_one]
    exact rsqrt_nonneg_real d h
  · have hb : Ideal.cmp .ogt d 0 = 0#1 := by simp [Ideal.cmp, h]
    rw [hb, select_zero]
    exact ⟨0, le_rfl, by simp⟩

/-- An id that, read signed, is the row n reads row n after the wrap of negative ids and the clamp. -/
theorem clampRow_of_target {N : ℕ} (hN : 0 < N) (n : Fin N) (id zero rows : BitVec 32) (hzero : zero = 0#32)
    (h : id.toInt = (n.val : Int)) :
    clampRow N hN (Scalar.select (IntOp.cmpi .slt id zero) (IntOp.addi id rows) id) = n := by
  have hnot : id.slt zero = false := by
    rw [hzero, BitVec.slt_eq_decide]
    simp only [BitVec.toInt_zero, decide_eq_false_iff_not, not_lt]
    omega
  have hb : IntOp.cmpi .slt id zero = 0#1 := by
    show BitVec.ofBool (id.slt zero) = 0#1
    rw [hnot]; rfl
  rw [hb, select_zero]
  apply Fin.ext
  show min id.toInt.toNat (N - 1) = n.val
  rw [h]
  have := n.isLt
  simp only [Int.toNat_natCast]
  omega

section Stages
variable {N C E : ℕ} (hN : 0 < N)
  (wfS : ScatterDims.WF ⟨2, ![N, C]⟩ ⟨2, ![E, 1]⟩ ⟨2, ![E, C]⟩ [1] [0] [0] 1)
  (wfG : GatherDims.WF ⟨2, ![N, C]⟩ ⟨2, ![E, 1]⟩ ⟨2, ![E, C]⟩ [1] [0] [] [0] [] 1 ![1, C])
  (wfF : GatherDims.WF ⟨1, ![N]⟩ ⟨2, ![E, 1]⟩ ⟨1, ![E]⟩ [] [0] [] [0] [] 1 ![1])

/-- The scaled arrangement at an entry. disMat is the factor of a row repeated along the row. -/
theorem scaled_stage (dis : FVec Ideal ⟨1, ![N]⟩ .f32) (h zeros disMat : FVec Ideal ⟨2, ![N, C]⟩ .f32)
    (hz : ∀ i, zeros i = 0) (hdm : ∀ (n : Fin N) (c : Fin C), disMat (ix2 n c) = dis (ix1 n))
    (tgt src : IVec ⟨2, ![E, 1]⟩ 32) (n : Fin N) (c : Fin C) :
    mulf disMat (Host.scatterAdd (SegmentSum.rowDims N C E wfS) zeros tgt
        (Host.gather (GatherRows.rowDims N C E wfG) (mulf disMat h) src)) (ix2 n c)
      = aggScaled hN (fun n => dis (ix1 n)) (fun n c => h (ix2 n c)) tgt src n c := by
  rw [mulf_apply, hdm, SegmentSum.scatterAdd_rows_apply, hz]
  unfold aggScaled edgesInto
  refine congrArg (fun s : EReal => dis (ix1 n) * (0 + s)) (Finset.sum_congr rfl fun e _ => ?_)
  rw [GatherRows.gather_rows_apply hN, mulf_apply, hdm]
  rfl

/-- The per-edge arrangement at an entry. wMat is the weight of an edge repeated along the edge's row. -/
theorem perEdge_stage (dis : FVec Ideal ⟨1, ![N]⟩ .f32) (h zeros : FVec Ideal ⟨2, ![N, C]⟩ .f32)
    (hz : ∀ i, zeros i = 0) (tgt src tgtRead : IVec ⟨2, ![E, 1]⟩ 32) (wMat : FVec Ideal ⟨2, ![E, C]⟩ .f32)
    (hw : ∀ (e : Fin E) (c : Fin C), wMat (ix2 e c)
      = mulf (Host.gather (GatherRows.flatDims N E wfF) dis src) (Host.gather (GatherRows.flatDims N E wfF) dis tgtRead) (ix1 e))
    (n : Fin N) (c : Fin C) :
    Host.scatterAdd (SegmentSum.rowDims N C E wfS) zeros tgt
        (mulf wMat (Host.gather (GatherRows.rowDims N C E wfG) h src)) (ix2 n c)
      = aggPerEdge hN (fun n => dis (ix1 n)) (fun n c => h (ix2 n c)) tgt src tgtRead n c := by
  rw [SegmentSum.scatterAdd_rows_apply, hz]
  unfold aggPerEdge edgesInto
  refine congrArg (fun s : EReal => 0 + s) (Finset.sum_congr rfl fun e _ => ?_)
  rw [mulf_apply, hw, mulf_apply, GatherRows.gather_flat_apply hN, GatherRows.gather_flat_apply hN,
    GatherRows.gather_rows_apply hN]
  rfl

end Stages

end Cert.Gcn

end
-- ==== Proof.GcnProgram.lean ====
/-
  The whole layer as one function of the four argument arrays, in its two arrangements, and their equality.

  From the edge array come the target ids as a column (which row an edge adds into), the source ids and the target
  ids wrapped (a negative id has the number of nodes added to it) as columns (which row an edge reads, after the
  clamp), and the degree factors. The matrix h is the product of the node features and the weights. The kernel's
  program computes the scaled arrangement of the weighted sum, the reference the per-edge one; both then add the bias
  and take the log-softmax of every row. The two are equal: the degree factors are nonnegative reals and an edge
  that adds into row n reads, as its target, row n.
-/
import Idealize.ShloMosaic.PureOps.Ideal.Laws
import Idealize.ShloMosaic.Lib.Pipeline.Value
import proofs.«177750_j30288109371814_2_alg».proof.Proof.GcnSpec
import proofs.«177750_j30288109371814_2_alg».proof.Proof.GcnStages
import proofs.«177750_j30288109371814_2_alg».proof.Proof.GcnHostIds

noncomputable section

open scoped BigOperators

namespace Cert.Gcn.Host

open Idealize.ShloMosaic Idealize.ShloMosaic.ValueIdx Cert.Gcn

/-- An id array as a column. -/
def asColumn (v : IVec S450000 32) : IVec S450000x1 32 := broadcastInDim S450000x1 ![0] (by decide) v

/-- An id array with the number of nodes added to its negative ids. -/
def wrapNeg (v : IVec S450000 32) : IVec S450000 32 :=
  select (cmpi .slt v (broadcastInDim S450000 ![] (by decide) (constantI S_ 32 0#32)))
    (addi v (broadcastInDim S450000 ![] (by decide) (constantI S_ 32 50000#32))) v

/-- The row an edge adds into: its target id. -/
def tgtIdx (x1 : IVec S2x400000 32) : IVec S450000x1 32 := asColumn (dstIds x1)
/-- The row an edge reads as its source: its source id, wrapped. -/
def srcIdx (x1 : IVec S2x400000 32) : IVec S450000x1 32 := asColumn (wrapNeg (srcIds x1))
/-- The row an edge reads as its target: its target id, wrapped. -/
def tgtReadIdx (x1 : IVec S2x400000 32) : IVec S450000x1 32 := asColumn (wrapNeg (dstIds x1))

theorem rows_pos : 0 < 50000 := by decide

/-- The degree factor of node n. -/
def dis (x1 : IVec S2x400000 32) (n : Fin 50000) : EReal := degFactor (F := Ideal) x1 (ix1 n)

/-- The scaled arrangement of the weighted sum. -/
def preScaled (x0 : (⟨2, ![50000, 2048]⟩ : Shape).Idx → EReal) (x1 : IVec S2x400000 32)
    (x2 : (⟨2, ![2048, 512]⟩ : Shape).Idx → EReal) (n : Fin 50000) (c : Fin 512) : EReal :=
  aggScaled rows_pos (dis x1) (matProd x0 x2) (tgtIdx x1) (srcIdx x1) n c

/-- The per-edge arrangement of the weighted sum. -/
def prePerEdge (x0 : (⟨2, ![50000, 2048]⟩ : Shape).Idx → EReal) (x1 : IVec S2x400000 32)
    (x2 : (⟨2, ![2048, 512]⟩ : Shape).Idx → EReal) (n : Fin 50000) (c : Fin 512) : EReal :=
  aggPerEdge rows_pos (dis x1) (matProd x0 x2) (tgtIdx x1) (srcIdx x1) (tgtReadIdx x1) n c

/-- The column of an id array reads the array. -/
theorem asColumn_apply (v : IVec S450000 32) (e : Fin 450000) : asColumn v (ix2 e (0 : Fin 1)) = v (ix1 e) := by
  unfold asColumn
  refine broadcastInDim_apply _ _ v (ix2 e (0 : Fin 1)) (ix1 e) fun ax => ?_
  match ax with
  | ⟨0, _⟩ => rfl

/-- The two arrangements are one function. -/
theorem preScaled_eq (x0 : (⟨2, ![50000, 2048]⟩ : Shape).Idx → EReal) (x1 : IVec S2x400000 32)
    (x2 : (⟨2, ![2048, 512]⟩ : Shape).Idx → EReal) (n : Fin 50000) (c : Fin 512) :
    preScaled x0 x1 x2 n c = prePerEdge x0 x1 x2 n c := by
  unfold preScaled prePerEdge
  refine agg_eq rows_pos (dis x1) (fun k => ?_) _ _ _ _ n (fun e he => ?_) c
  · unfold dis degFactor
    exact degFactor_nonneg _ _ _ (fun _ => by simp [broadcastInDim, constant, Ideal.ofBits_zero_f32])
      (fun _ => by simp [broadcastInDim, constant, Ideal.ofBits_zero_f32]) (ix1 k)
  · unfold tgtIdx at he
    rw [asColumn_apply] at he
    unfold tgtReadIdx
    rw [asColumn_apply]
    unfold wrapNeg
    exact clampRow_of_target rows_pos n _ _ _ rfl he

/-- The kernel program's result: bias and log-softmax over the scaled arrangement. -/
def outScaled (x0 : (⟨2, ![50000, 2048]⟩ : Shape).Idx → EReal) (x1 : IVec S2x400000 32)
    (x2 : (⟨2, ![2048, 512]⟩ : Shape).Idx → EReal) (x3 : (⟨1, ![512]⟩ : Shape).Idx → EReal) :
    (⟨2, ![50000, 512]⟩ : Shape).Idx → EReal :=
  fun i => logSoftmax (fun n c => preScaled x0 x1 x2 n c + x3 (ix1 c)) (i 0) (i 1)

/-- The reference's result: bias and log-softmax over the per-edge arrangement. -/
def outPerEdge (x0 : (⟨2, ![50000, 2048]⟩ : Shape).Idx → EReal) (x1 : IVec S2x400000 32)
    (x2 : (⟨2, ![2048, 512]⟩ : Shape).Idx → EReal) (x3 : (⟨1, ![512]⟩ : Shape).Idx → EReal) :
    (⟨2, ![50000, 512]⟩ : Shape).Idx → EReal :=
  fun i => logSoftmax (fun n c => prePerEdge x0 x1 x2 n c + x3 (ix1 c)) (i 0) (i 1)

/-- The two programs' results are one function of the arguments. -/
theorem outScaled_eq (x0 : (⟨2, ![50000, 2048]⟩ : Shape).Idx → EReal) (x1 : IVec S2x400000 32)
    (x2 : (⟨2, ![2048, 512]⟩ : Shape).Idx → EReal) (x3 : (⟨1, ![512]⟩ : Shape).Idx → EReal) :
    outScaled x0 x1 x2 x3 = outPerEdge x0 x1 x2 x3 := by
  unfold outScaled outPerEdge
  funext i
  refine congrArg (fun v : Fin 50000 → Fin 512 → EReal => logSoftmax v (i 0) (i 1)) (funext fun n => funext fun c => ?_)
  rw [preScaled_eq]

end Cert.Gcn.Host

end
-- ==== Proof.LibHostOps.lean ====
/-
  Host operations on matrices read at an entry written by coordinates.

  • A vector `[b]` made a one-row matrix and broadcast over `a` rows reads, at `(p, q)`, the vector at `q`.
  • A vector `[a]` made a one-column matrix and broadcast over `b` columns reads, at `(p, c)`, the vector at `p`.
  • A scalar broadcast to any shape reads the scalar everywhere.
  • Two matrices joined along their columns read, left of the seam, the first, and right of it the second.
  • The host's sum over the columns of a matrix, read at row `p`, is the initial value plus the sum of that row.
  • The host's logarithm and exponential read elementwise.
  • A sum over `a + b` indices is the sum over the first `a` plus the sum over the last `b`.
-/
import Idealize.ShloMosaic.Lib.Pipeline.Value
import Idealize.ShloMosaic.Lib.ValueIdx
import Idealize.ShloMosaic.PureOps.Ideal.Laws

namespace Cert.HostOps

open Idealize.ShloMosaic Idealize.ShloMosaic.ValueIdx
open scoped BigOperators

variable {α : Type}

/-- A scalar broadcast to any shape reads the scalar at every index. -/
theorem bcast_scalar {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-- A vector as a one-row matrix. -/
theorem bcast_vec_row {b : ℕ} (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A one-row matrix broadcast over the rows. -/
theorem bcast_row_rows {a b : ℕ} (x : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h x (ix2 p q) = x (ix2 (0 : Fin 1) q) := by
  refine broadcastInDim_apply _ h x (ix2 p q) (ix2 (0 : Fin 1) q) fun ax => ?_
  match ax with
  | ⟨0, _⟩ => rfl
  | ⟨1, _⟩ =>
    show q.val = if b = 1 then 0 else q.val
    split
    · have := q.isLt; omega
    · rfl

/-- A vector as a one-column matrix. -/
theorem bcast_vec_col {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A one-column matrix broadcast over the columns. -/
theorem bcast_col_cols {a b : ℕ} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- Left of the seam a column-wise join reads its first piece. -/
theorem concat_cols_left {n a b c : ℕ} (u : (⟨2, ![n, a]⟩ : Shape).Idx → α) (v : (⟨2, ![n, b]⟩ : Shape).Idx → α)
    (h : Shape.Concatenates [⟨2, ![n, a]⟩, ⟨2, ![n, b]⟩] ⟨2, ![n, c]⟩ 1) (p : Fin n) (k : Fin a) (j : Fin c)
    (hj : j.val = k.val) :
    concatenate ⟨2, ![n, c]⟩ 1 [⟨⟨2, ![n, a]⟩, u⟩, ⟨⟨2, ![n, b]⟩, v⟩] h (ix2 p j) = u (ix2 p k) :=
  concatenate_pair_apply_left 1 u v h (ix2 p j) rfl (ix2 p k) (fun ax => by
    match ax with
    | ⟨0, _⟩ => rfl
    | ⟨1, _⟩ => exact hj.symm)

/-- Right of the seam it reads its second piece, the first piece's width taken off the column. -/
theorem concat_cols_right {n a b c : ℕ} (u : (⟨2, ![n, a]⟩ : Shape).Idx → α) (v : (⟨2, ![n, b]⟩ : Shape).Idx → α)
    (h : Shape.Concatenates [⟨2, ![n, a]⟩, ⟨2, ![n, b]⟩] ⟨2, ![n, c]⟩ 1) (p : Fin n) (k : Fin b) (j : Fin c)
    (hj : j.val = a + k.val) :
    concatenate ⟨2, ![n, c]⟩ 1 [⟨⟨2, ![n, a]⟩, u⟩, ⟨⟨2, ![n, b]⟩, v⟩] h (ix2 p j) = v (ix2 p k) :=
  concatenate_pair_apply_right 1 u v h (ix2 p j) rfl rfl (ix2 p k) (fun ax hne => by
    match ax with
    | ⟨0, _⟩ => rfl
    | ⟨1, _⟩ => exact absurd rfl hne) (by
    show k.val + a = j.val
    omega)

/-- The host's sum over the columns, at a row. -/
theorem hostReduceAdd_rows {a b : ℕ} {φ : FTy} (x : FVec Ideal ⟨2, ![a, b]⟩ φ) (init : FVec Ideal ⟨0, ![]⟩ φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduceAdd (F := Ideal) x init h' hu (ix1 p) = init ix0 + ∑ k : Fin b, x (ix2 p k) := by
  simp only [Host.reduceAdd, Ideal.hostReduceAdd_def]
  rw [Ideal.hostReduceAdd_single h' h, eq_ix0 (Shape.Idx.first hu)]
  refine congrArg (_ + ·) (Finset.sum_congr rfl fun k _ => ?_)
  exact congrArg x (funext fun ax => Fin.ext (by match ax with | ⟨0, _⟩ => rfl | ⟨1, _⟩ => rfl))

/-- The host's logarithm and exponential, at an index, are the extended reals'. -/
theorem hostLog_apply {s : Shape} {φ : FTy} (x : FVec Ideal s φ) (i : s.Idx) :
    Host.log (F := Ideal) x i = Ideal.log (x i) := rfl
theorem hostExp_apply {s : Shape} {φ : FTy} (x : FVec Ideal s φ) (i : s.Idx) :
    Host.exp (F := Ideal) x i = Ideal.exp (x i) := rfl

/-- A sum over `a + b` indices splits at `a`. -/
theorem sum_split {M : Type} [AddCommMonoid M] (a b : ℕ) (f : Fin (a + b) → M) :
    ∑ k, f k = ∑ k : Fin a, f (Fin.castAdd b k) + ∑ k : Fin b, f (Fin.natAdd a k) :=
  Fin.sum_univ_add f

end Cert.HostOps
-- ==== Proof.KValue.lean ====
/-
  The value of the idealized kernel program's result.

  The second region is entered with two arrays written by the host stretch between the regions: the summed messages
  in the scaled arrangement (every row of the product scaled by its degree factor, gathered by the source ids, added
  into the rows named by the target ids, the sums scaled again), and the bias as a one-row matrix. Read at an entry,
  the first is Cert.Gcn.Host.preScaled of the argument arrays, the second the bias at the column. The region then
  leaves in the result array the bias-plus-log-softmax of the two, which is Cert.Gcn.Host.outScaled of the arguments.
-/
import proofs.«177750_j30288109371814_2_alg».proof.Proof.KHost
import proofs.«177750_j30288109371814_2_alg».proof.Proof.KHostDis
import proofs.«177750_j30288109371814_2_alg».proof.Proof.KMatmul
import proofs.«177750_j30288109371814_2_alg».proof.Proof.KRegion1
import proofs.«177750_j30288109371814_2_alg».proof.Proof.GcnProgram
import proofs.«177750_j30288109371814_2_alg».proof.Proof.LibHostOps
import Idealize.ShloMosaic.Lib.ValueLayout

noncomputable section

namespace Cert.KernelIdeal.KVal

open Idealize.ShloMosaic Idealize.ShloMosaic.TcCoe Idealize.SL.Sem Idealize.ShloMosaic.StableHlo
open Idealize.ShloMosaic.ValueIdx
open Cert.KernelIdeal Cert.KernelIdeal.Gen

variable (m : (ℓ : Loc nD τ sig) → Buf (Elt Ideal) ℓ) (ρ : Dev nD → PrngReg)

/-- The bias array reaches the stretch between the regions as launched: nothing before it writes it. -/
theorem w5_bias (c : Dev nD) :
    W5 m ρ c (Proc.devRef .tc main_arg3) = m ((c.tc : Thread nD τ).loc main_arg3) :=
  ((show after hostOps1 (W5 m ρ c) (Proc.devRef .tc main_arg3) = W5 m ρ c (Proc.devRef .tc main_arg3) by
      after_results).symm.trans (W7_of_ne m ρ c main_arg3 (by decide)).symm).trans (W7_main_arg3 m ρ c)

/-- The second region's bias row: the bias as a one-row matrix. -/
theorem entry1_bias (c : Dev nD) :
    W6 m ρ c (Proc.devRef .tc main_v34)
      = shapeCast S1x512 (m ((c.tc : Thread nD τ).loc main_arg3)) shapeCasts_S512_S1x512 := by
  have e : after hostOps1 (W5 m ρ c) (Proc.devRef .tc main_v34)
      = shapeCast S1x512 (W5 m ρ c (Proc.devRef .tc main_arg3)) shapeCasts_S512_S1x512 := by
    after_results
    rfl
  exact e.trans (by rw [w5_bias])

set_option maxHeartbeats 2000000 in
/-- The second region's summed messages, as the operations between the regions applied to the product, the degree
    factors and the id arrays. -/
theorem entry1_rows (c : Dev nD) :
    W6 m ρ c (Proc.devRef .tc main_v33)
      = mulf (broadcastInDim S50000x512 ![0, 1] bcast_S50000x1_S50000x512_0_1
            (broadcastInDim S50000x1 ![0] bcast_S50000_S50000x1_0 (W5 m ρ c (Proc.devRef .tc main_v14))))
          (Host.scatterAdd scatter_S50000x512_S450000x1_S450000x512_1_0_0_1
            (broadcastInDim S50000x512 ![] bcast_S_S50000x512 (constant (F := Ideal) S_ .f32 0x00000000#32))
            (broadcastInDim S450000x1 ![0] bcast_S450000_S450000x1_0 (W5 m ρ c (Proc.devRef .tc main_v6)))
            (Host.gather gather_S50000x512_S450000x1_S450000x512_1_0_n_n_0_1_1512
              (mulf (broadcastInDim S50000x512 ![0, 1] bcast_S50000x1_S50000x512_0_1
                  (broadcastInDim S50000x1 ![0] bcast_S50000_S50000x1_0 (W5 m ρ c (Proc.devRef .tc main_v14))))
                (extractStridedSlice S50000x512 ![0, 0] (W5 m ρ c (Proc.devRef .tc main_v16))
                  slices_S50176x512_S50000x512_0_0))
              (broadcastInDim S450000x1 ![0] bcast_S450000_S450000x1_0
                (select (cmpi .slt (W5 m ρ c (Proc.devRef .tc main_v3))
                    (broadcastInDim S450000 ![] bcast_S_S450000 (constantI S_ 32 0#32)))
                  (addi (W5 m ρ c (Proc.devRef .tc main_v3))
                    (broadcastInDim S450000 ![] bcast_S_S450000 (constantI S_ 32 50000#32)))
                  (W5 m ρ c (Proc.devRef .tc main_v3)))))) := by
  show after hostOps1 (W5 m ρ c) (Proc.devRef .tc main_v33) = _
  after_results

/-- The second region's summed messages at an entry: the scaled arrangement of the argument arrays. -/
theorem entry1_rows_apply (c : Dev nD) (n : Fin 50000) (q : Fin 512) :
    W6 m ρ c (Proc.devRef .tc main_v33) (ix2 n q)
      = Cert.Gcn.Host.preScaled (m ((c.tc : Thread nD τ).loc main_arg0)) (m ((c.tc : Thread nD τ).loc main_arg1))
          (m ((c.tc : Thread nD τ).loc main_arg2)) n q := by
  rw [entry1_rows, w5_dis, w5_src, w5_dst, w5_prod]
  refine (Cert.Gcn.scaled_stage (N := 50000) (C := 512) (E := 450000) Cert.Gcn.Host.rows_pos _ _
    (Cert.Gcn.Host.degFactor (F := Ideal) (m ((c.tc : Thread nD τ).loc main_arg1))) _ _ _
    (fun _ => by simp [broadcastInDim, constant, Ideal.ofBits_zero_f32])
    (fun p r => by rw [Cert.HostOps.bcast_col_cols, Cert.HostOps.bcast_vec_col]) _ _ n q).trans ?_
  rfl

/-- THE RESULT: the last fold's contents of the result buffer are the scaled arrangement's bias-plus-log-softmax. -/
theorem w7_result (c : Dev nD) :
    W7 m ρ c (Proc.devRef .tc main_v35)
      = Cert.Gcn.Host.outScaled (m ((c.tc : Thread nD τ).loc main_arg0)) (m ((c.tc : Thread nD τ).loc main_arg1))
          (m ((c.tc : Thread nD τ).loc main_arg2)) (m ((c.tc : Thread nD τ).loc main_arg3)) := by
  refine (W7_arr m ρ c 2).trans ?_
  rw [Cert.KernelIdeal.Region1.final (V6 m ρ) c]
  unfold Cert.Gcn.biasLogSoftmaxArr Cert.Gcn.Host.outScaled
  funext i
  refine congrArg (fun v : Fin 50000 → Fin 512 → EReal => Cert.Gcn.logSoftmax v (i 0) (i 1))
    (funext fun n => funext fun q => ?_)
  refine congrArg₂ (fun a b : EReal => a + b) ?_ ?_
  · exact entry1_rows_apply m ρ c n q
  · exact (congrFun (entry1_bias m ρ c) _).trans (shapeCast_a_1a_apply _ _ _ _)

end Cert.KernelIdeal.KVal

end
-- ==== Proof.RRun.lean ====
/-
  The idealized reference program's run, with its result named.

  The reference is a straight line of 75 host operations. Every weakly fair execution terminates and leaves in every
  buffer what the fold of the operations leaves there from the launch contents. The line is cut in three stretches —
  the index arrays and the degree factors (21 operations), the weighted messages summed into rows plus the bias
  (39 operations), the row-wise log-softmax (15 operations) — and the fold of the whole line is the fold of the third
  stretch from the fold of the second from the fold of the first (foldC, foldB, foldA), so that each stretch can be
  read on its own.
-/
import proofs.«177750_j30288109371814_2_alg».proof.Proof.RunP

noncomputable section

namespace Cert.ReferenceIdeal.RVal

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

/-- Folding a line that is two lines in a row is folding the second from the fold of the first. -/
theorem after_append' {τ : Topo} {sig : RefSig} {Val : EltTy → Type} (l₁ l₂ : List (HloOp τ sig Val))
    (V : Valuation τ sig Val) : after (l₁ ++ l₂) V = after l₂ (after l₁ V) := by
  induction l₁ generalizing V with
  | nil => rfl
  | cons op l ih => simp only [List.cons_append, after_cons, ih]

variable (m : (ℓ : Loc nD τ sig) → Buf (Elt F) ℓ)

/-- The buffers after the first stretch: the index arrays and the degree factors. -/
def foldA (c : Dev nD) : Valuation τ sig (Elt F) := after ((ops (F := F)).take 21) (launchContents m c)
/-- The buffers after the second stretch: the summed messages plus the bias. -/
def foldB (c : Dev nD) : Valuation τ sig (Elt F) := after (((ops (F := F)).drop 21).take 39) (foldA m c)
/-- The buffers after the third stretch, the log-softmax: the end of the line. -/
def foldC (c : Dev nD) : Valuation τ sig (Elt F) := after ((ops (F := F)).drop 60) (foldB m c)

/-- The fold of the whole line is the fold of the three stretches in turn. -/
theorem after_ops_eq (c : Dev nD) : after (ops (F := F)) (launchContents m c) = foldC m c := by
  unfold foldC foldB foldA
  rw [← after_append', ← after_append']
  congr 1

set_option maxRecDepth 8192 in
set_option maxHeartbeats 4000000 in
/-- Every weakly fair execution of the reference terminates without a fault; the result array ends at the fold's
    contents of its buffer, and the four argument arrays end as launched. -/
theorem run_result (ρ : Dev nD → PrngReg) :
    θ_run defs (onTc (τ := τ) (main (F := F))) ⟨m, fun _ => 0, ρ⟩ fun r => ∀ c : Dev nD,
      r.2.mem ((c.tc : Thread nD τ).loc main_v47) = foldC m c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v47).trans (congrFun (after_ops_eq m c) _),
      (h c main_arg0).trans (by after_results_simp <;> rfl),
      (h c main_arg1).trans (by after_results_simp <;> rfl),
      (h c main_arg2).trans (by after_results_simp <;> rfl),
      (h c main_arg3).trans (by after_results_simp <;> rfl)⟩)
    (run_seq scopedRefs_eq scopedSems_eq defs main (fun _ => ops) main_eq (fun _ => ops_sub) m ρ)

end Cert.ReferenceIdeal.RVal

end
-- ==== Proof.RStretchA.lean ====
/-
  The reference program's first stretch, read: the arrays the second stretch finds.

  The first 21 operations compute, from the edge array alone, the source and target id arrays (a row of the edge
  array followed by the loop edges' ids) and the degree factors (ones added into the nodes by the target ids; the
  inverse square root where the sum is positive, zero elsewhere); they write none of the other three arguments. Each
  buffer the second stretch reads is stated here as the shared definition (Cert.Gcn.Host) of the launch contents.

  The degree factors are read in two steps, cut where the program calls its selection function: the call's three
  operations from any contents (pick_reading), and the mask, the inverse square roots and the zero constant they
  read, after the 18 operations before the call (head_mask, head_rsqrt, head_zero).
-/
import proofs.«177750_j30288109371814_2_alg».proof.Proof.RRun
import proofs.«177750_j30288109371814_2_alg».proof.Proof.GcnHostIds
import Idealize.ShloMosaic.PureOps.Ideal
import Idealize.ShloMosaic.Lib.ValueIdx
import Idealize.ShloMosaic.Lib.StableHlo.Run

noncomputable section

namespace Cert.ReferenceIdeal.RVal

open Cert.ReferenceIdeal Cert.ReferenceIdeal.Gen Cert.ReferenceIdeal.ValueP
open Idealize.ShloMosaic Idealize.ShloMosaic.TcCoe Idealize.SL.Sem Idealize.ShloMosaic.StableHlo Idealize.ShloMosaic.ValueIdx
open scoped BigOperators

variable (m : (ℓ : Loc nD τ sig) → Buf (Elt Ideal) ℓ)

/-- The source ids. -/
theorem foldA_src (c : Dev nD) :
    foldA m c (Proc.devRef .tc main_v3) = Cert.Gcn.Host.srcIds (m ((c.tc : Thread nD τ).loc main_arg1)) := by
  unfold foldA
  simp only [ops, List.take_succ_cons, List.take_zero]
  after_results
  rfl

/-- The target ids. -/
theorem foldA_dst (c : Dev nD) :
    foldA m c (Proc.devRef .tc main_v6) = Cert.Gcn.Host.dstIds (m ((c.tc : Thread nD τ).loc main_arg1)) := by
  unfold foldA
  simp only [ops, List.take_succ_cons, List.take_zero]
  after_results
  rfl

/-- The node features are written by no operation of the first stretch. -/
theorem foldA_arg0 (c : Dev nD) :
    foldA m c (Proc.devRef .tc main_arg0) = m ((c.tc : Thread nD τ).loc main_arg0) := by
  unfold foldA
  simp only [ops, List.take_succ_cons, List.take_zero]
  after_results

/-- Nor are the weights. -/
theorem foldA_arg2 (c : Dev nD) :
    foldA m c (Proc.devRef .tc main_arg2) = m ((c.tc : Thread nD τ).loc main_arg2) := by
  unfold foldA
  simp only [ops, List.take_succ_cons, List.take_zero]
  after_results

/-- Nor is the bias. -/
theorem foldA_arg3 (c : Dev nD) :
    foldA m c (Proc.devRef .tc main_arg3) = m ((c.tc : Thread nD τ).loc main_arg3) := by
  unfold foldA
  simp only [ops, List.take_succ_cons, List.take_zero]
  after_results

/-- The first stretch is its first 18 operations followed by the 3 of the inlined call that picks, node by node,
    the inverse square root or zero. -/
theorem foldA_split (c : Dev nD) :
    foldA m c = after (((ops (F := Ideal)).take 21).drop 18) (after ((ops (F := Ideal)).take 18) (launchContents m c)) := by
  unfold foldA
  rw [← after_append']
  congr 1

/-- The three operations of the inlined call, from any contents: where the mask is set the second array, elsewhere
    the zero constant repeated. -/
theorem pick_reading (G : Valuation τ sig (Elt Ideal)) :
    after (((ops (F := Ideal)).take 21).drop 18) G (Proc.devRef .tc main_v14)
      = select (G (Proc.devRef .tc main_v12)) (G (Proc.devRef .tc main_v13))
          (broadcastInDim S50000 ![] bcast_S_S50000 (id (G (Proc.devRef .tc main_cst_2)))) := by
  simp only [ops, List.take_succ_cons, List.take_zero, List.drop_succ_cons, List.drop_zero]
  after_results
  rfl

set_option maxHeartbeats 4000000 in
/-- The mask: where the degree is positive. -/
theorem head_mask (c : Dev nD) :
    after ((ops (F := Ideal)).take 18) (launchContents m c) (Proc.devRef .tc main_v12)
      = cmpf (F := Ideal) .ogt (Cert.Gcn.Host.degree (F := Ideal) (m ((c.tc : Thread nD τ).loc main_arg1)))
          (broadcastInDim S50000 ![] bcast_S_S50000 (constant (F := Ideal) S_ .f32 0x00000000#32)) := by
  simp only [ops, List.take_succ_cons, List.take_zero]
  after_results
  rfl

set_option maxHeartbeats 4000000 in
/-- The inverse square roots of the degrees. -/
theorem head_rsqrt (c : Dev nD) :
    after ((ops (F := Ideal)).take 18) (launchContents m c) (Proc.devRef .tc main_v13)
      = Host.rsqrt (F := Ideal) (Cert.Gcn.Host.degree (F := Ideal) (m ((c.tc : Thread nD τ).loc main_arg1))) := by
  simp only [ops, List.take_succ_cons, List.take_zero]
  after_results
  rfl

/-- The zero constant. -/
theorem head_zero (c : Dev nD) :
    after ((ops (F := Ideal)).take 18) (launchContents m c) (Proc.devRef .tc main_cst_2)
      = constant (F := Ideal) S_ .f32 0x00000000#32 := by
  simp only [ops, List.take_succ_cons, List.take_zero]
  after_results

/-- The degree factors. -/
theorem foldA_dis (c : Dev nD) :
    foldA m c (Proc.devRef .tc main_v14)
      = Cert.Gcn.Host.degFactor (F := Ideal) (m ((c.tc : Thread nD τ).loc main_arg1)) := by
  rw [foldA_split, pick_reading, head_mask, head_rsqrt, head_zero]
  rfl

end Cert.ReferenceIdeal.RVal

end
-- ==== Proof.RStretchB.lean ====
/-
  The reference program's second stretch, read: the summed messages plus the bias.

  The 39 operations after the degree factors wrap the negative source and target ids by the number of nodes, gather
  the degree factors at both and multiply them into one weight per edge, multiply the node features by the weights
  matrix, gather the product's rows by the wrapped source ids, weigh every gathered row by its edge's weight, add the
  rows into the rows named by the target ids starting from zero, and add the bias repeated over the rows.

  • The host's product is the matrix product, entry by entry (host_prod), the dimension numbers entering through
    four coordinate facts (lhs_row … rhs_col).
  • The stretch's result is ONE function preArr of the six arrays it reads, whatever they hold (stretchB_reading).
  • On the id arrays and the degree factors of an edge array, preArr at (n, q) is the per-edge arrangement of the
    weighted sum plus the bias at q (preArr_apply): the scatter of weighed gathered rows is Cert.Gcn.aggPerEdge
    (Cert.Gcn.perEdge_stage), the bias made a row and repeated reads the bias at the column.
  • The six arrays are those the first stretch leaves (RStretchA), whence foldB_pre.
-/
import proofs.«177750_j30288109371814_2_alg».proof.Proof.RRun
import proofs.«177750_j30288109371814_2_alg».proof.Proof.GcnProgram
import proofs.«177750_j30288109371814_2_alg».proof.Proof.LibRowOps
import proofs.«177750_j30288109371814_2_alg».proof.Proof.LibHostOps
import proofs.«177750_j30288109371814_2_alg».proof.Proof.RStretchA
import Idealize.ShloMosaic.Lib.StableHlo.Run
import Idealize.ShloMosaic.Lib.Pipeline.Value
import Idealize.ShloMosaic.Lib.ValueIdx
import Idealize.ShloMosaic.PureOps.Ideal.Laws

noncomputable section

namespace Cert.ReferenceIdeal.RVal

open Cert.ReferenceIdeal Cert.ReferenceIdeal.Gen Cert.ReferenceIdeal.ValueP
open Idealize.ShloMosaic Idealize.ShloMosaic.TcCoe Idealize.SL.Sem Idealize.ShloMosaic.StableHlo Idealize.ShloMosaic.ValueIdx
open scoped BigOperators

variable (m : (ℓ : Loc nD τ sig) → Buf (Elt Ideal) ℓ)

/-! ## The host product at an entry -/

/-- Row coordinate of the left operand's index: the output's row. -/
theorem lhs_row (i : S50000x512.Idx) (q : dot_S50000x2048_S2048x512_S50000x512_1_0_0_1_n_n.contr.Idx) :
    (dot_S50000x2048_S2048x512_S50000x512_1_0_0_1_n_n.lhsIdx i q 0).val = (i 0).val := by
  unfold DotDims.lhsIdx
  rw [dif_neg (show ¬(0 : Fin S50000x2048.rank) ∈ dot_S50000x2048_S2048x512_S50000x512_1_0_0_1_n_n.lhsBatch by decide),
    dif_pos (show (0 : Fin S50000x2048.rank) ∈ dot_S50000x2048_S2048x512_S50000x512_1_0_0_1_n_n.lhsNonContracting by decide)]
  rfl

/-- Column coordinate of the left operand's index: the contracted position. -/
theorem lhs_col (i : S50000x512.Idx) (q : dot_S50000x2048_S2048x512_S50000x512_1_0_0_1_n_n.contr.Idx) :
    (dot_S50000x2048_S2048x512_S50000x512_1_0_0_1_n_n.lhsIdx i q 1).val = (q ⟨0, by decide⟩).val :=
  dot_S50000x2048_S2048x512_S50000x512_1_0_0_1_n_n.lhsIdx_val_of_single rfl i q

/-- Row coordinate of the right operand's index: the contracted position. -/
theorem rhs_row (i : S50000x512.Idx) (q : dot_S50000x2048_S2048x512_S50000x512_1_0_0_1_n_n.contr.Idx) :
    (dot_S50000x2048_S2048x512_S50000x512_1_0_0_1_n_n.rhsIdx i q 0).val = (q ⟨0, by decide⟩).val :=
  dot_S50000x2048_S2048x512_S50000x512_1_0_0_1_n_n.rhsIdx_val_of_single rfl i q

/-- Column coordinate of the right operand's index: the output's column. -/
theorem rhs_col (i : S50000x512.Idx) (q : dot_S50000x2048_S2048x512_S50000x512_1_0_0_1_n_n.contr.Idx) :
    (dot_S50000x2048_S2048x512_S50000x512_1_0_0_1_n_n.rhsIdx i q 1).val = (i 1).val := by
  unfold DotDims.rhsIdx
  rw [dif_neg (show ¬(1 : Fin S2048x512.rank) ∈ dot_S50000x2048_S2048x512_S50000x512_1_0_0_1_n_n.rhsBatch by decide),
    dif_pos (show (1 : Fin S2048x512.rank) ∈ dot_S50000x2048_S2048x512_S50000x512_1_0_0_1_n_n.rhsNonContracting by decide)]
  rfl

/-- The host's product of the node features and the weights is their matrix product, as arrays. -/
theorem host_prod (x0 : FVec Ideal S50000x2048 .f32) (x2 : FVec Ideal S2048x512 .f32) :
    Host.dotGeneral (F := Ideal) dot_S50000x2048_S2048x512_S50000x512_1_0_0_1_n_n none x0 x2
      = Cert.Gcn.matProdArr (N := 50000) (K := 2048) (C := 512) x0 x2 := by
  funext j
  obtain ⟨n, q, rfl⟩ : ∃ (n : Fin 50000) (q : Fin 512), j = ix2 n q := ⟨j 0, j 1, eq_ix2 j⟩
  exact Cert.RowOps.dotGeneral_entry dot_S50000x2048_S2048x512_S50000x512_1_0_0_1_n_n rfl rfl
    lhs_row lhs_col rhs_row rhs_col none x0 x2 n q

/-! ## The second stretch as one function of the arrays it reads -/

/-- What the second stretch leaves in the pre-activation array, from the source and target ids, the degree factors,
    the node features, the weights and the bias: the product's rows gathered by the wrapped source ids, each weighed
    by the product of the factors gathered at its wrapped source id and at its wrapped target id, added into the
    rows named by the target ids from zero, plus the bias repeated over the rows. -/
def preArr (src dst : IVec S450000 32) (dis : FVec Ideal S50000 .f32) (x0 : FVec Ideal S50000x2048 .f32)
    (x2 : FVec Ideal S2048x512 .f32) (x3 : FVec Ideal S512 .f32) : FVec Ideal S50000x512 .f32 :=
  addf
    (Host.scatterAdd (F := Ideal) scatter_S50000x512_S450000x1_S450000x512_1_0_0_1
      (broadcastInDim S50000x512 ![] bcast_S_S50000x512 (constant (F := Ideal) S_ .f32 0x00000000#32))
      (Cert.Gcn.Host.asColumn dst)
      (mulf
        (broadcastInDim S450000x512 ![0, 1] bcast_S450000x1_S450000x512_0_1
          (broadcastInDim S450000x1 ![0] bcast_S450000_S450000x1_0
            (mulf
              (Host.gather gather_S50000_S450000x1_S450000_n_0_n_n_0_1_1 dis
                (Cert.Gcn.Host.asColumn (Cert.Gcn.Host.wrapNeg src)))
              (Host.gather gather_S50000_S450000x1_S450000_n_0_n_n_0_1_1 dis
                (Cert.Gcn.Host.asColumn (Cert.Gcn.Host.wrapNeg dst))))))
        (Host.gather gather_S50000x512_S450000x1_S450000x512_1_0_n_n_0_1_1512
          (Host.dotGeneral (F := Ideal) dot_S50000x2048_S2048x512_S50000x512_1_0_0_1_n_n none x0 x2)
          (Cert.Gcn.Host.asColumn (Cert.Gcn.Host.wrapNeg src)))))
    (broadcastInDim S50000x512 ![0, 1] bcast_S1x512_S50000x512_0_1
      (broadcastInDim S1x512 ![1] bcast_S512_S1x512_1 x3))

set_option maxHeartbeats 4000000 in
/-- The second stretch's 39 operations, folded from any contents, leave that function of the six arrays in the
    pre-activation array. -/
theorem stretchB_reading (A : Valuation τ sig (Elt Ideal)) :
    after (((ops (F := Ideal)).drop 21).take 39) A (Proc.devRef .tc main_v46)
      = preArr (A (Proc.devRef .tc main_v3)) (A (Proc.devRef .tc main_v6)) (A (Proc.devRef .tc main_v14))
          (A (Proc.devRef .tc main_arg0)) (A (Proc.devRef .tc main_arg2)) (A (Proc.devRef .tc main_arg3)) := by
  simp only [ops, List.drop_succ_cons, List.drop_zero, List.take_succ_cons, List.take_zero]
  after_results_simp
  unfold preArr Cert.Gcn.Host.asColumn Cert.Gcn.Host.wrapNeg
  rfl

/-- At an entry, on the id arrays and the degree factors of an edge array: the per-edge arrangement plus the bias. -/
theorem preArr_apply (x0 : FVec Ideal S50000x2048 .f32) (x1 : IVec S2x400000 32) (x2 : FVec Ideal S2048x512 .f32)
    (x3 : FVec Ideal S512 .f32) (n : Fin 50000) (q : Fin 512) :
    preArr (Cert.Gcn.Host.srcIds x1) (Cert.Gcn.Host.dstIds x1) (Cert.Gcn.Host.degFactor (F := Ideal) x1) x0 x2 x3 (ix2 n q)
      = Cert.Gcn.Host.prePerEdge x0 x1 x2 n q + x3 (ix1 q) := by
  unfold preArr
  rw [addf_apply, Cert.HostOps.bcast_row_rows, Cert.HostOps.bcast_vec_row, host_prod]
  refine congrArg (· + x3 (ix1 q)) ?_
  refine (Cert.Gcn.perEdge_stage (N := 50000) (C := 512) (E := 450000) Cert.Gcn.Host.rows_pos _ _ _
    (Cert.Gcn.Host.degFactor (F := Ideal) x1) (Cert.Gcn.matProdArr (N := 50000) (K := 2048) (C := 512) x0 x2) _
    (fun _ => by simp [broadcastInDim, constant, Ideal.ofBits_zero_f32]) _ _ _ _
    (fun e c => by rw [Cert.HostOps.bcast_col_cols, Cert.HostOps.bcast_vec_col]; rfl) n q).trans ?_
  rfl

/-- After the second stretch the pre-activation array holds, at (n, q), the per-edge arrangement plus the bias. -/
theorem foldB_pre (c : Dev nD) (n : Fin 50000) (q : Fin 512) :
    foldB m c (Proc.devRef .tc main_v46) (ix2 n q)
      = Cert.Gcn.Host.prePerEdge (m ((c.tc : Thread nD τ).loc main_arg0)) (m ((c.tc : Thread nD τ).loc main_arg1))
          (m ((c.tc : Thread nD τ).loc main_arg2)) n q + m ((c.tc : Thread nD τ).loc main_arg3) (ix1 q) := by
  have e : foldB m c (Proc.devRef .tc main_v46)
      = preArr (Cert.Gcn.Host.srcIds (m ((c.tc : Thread nD τ).loc main_arg1)))
          (Cert.Gcn.Host.dstIds (m ((c.tc : Thread nD τ).loc main_arg1)))
          (Cert.Gcn.Host.degFactor (F := Ideal) (m ((c.tc : Thread nD τ).loc main_arg1)))
          (m ((c.tc : Thread nD τ).loc main_arg0)) (m ((c.tc : Thread nD τ).loc main_arg2))
          (m ((c.tc : Thread nD τ).loc main_arg3)) := by
    unfold foldB
    refine (stretchB_reading (foldA m c)).trans ?_
    rw [foldA_src, foldA_dst, foldA_dis, foldA_arg0, foldA_arg2, foldA_arg3]
  exact (congrFun e (ix2 n q)).trans (preArr_apply _ _ _ _ n q)

end Cert.ReferenceIdeal.RVal

end
-- ==== Proof.GcnRowSoftmax.lean ====
/-
  The row-wise log-softmax written with host operations, read at an entry.

  The host computes each row's maximum as the larger of −∞ and the fold of max over the row from −∞ (which is that
  fold: a fold of max is never below its starting value), keeps it as a column and repeats it along the rows,
  subtracts it, exponentiates, sums each row from 0, keeps the sums as a column, takes logarithms, repeats them along
  the rows and subtracts. At the entry (n, c) that is Cert.Gcn.logSoftmax of row n at column c.
-/
import Idealize.ShloMosaic.PureOps.Ideal
import Idealize.ShloMosaic.Lib.ValueIdx
import proofs.«177750_j30288109371814_2_alg».proof.Proof.GcnSpec
import proofs.«177750_j30288109371814_2_alg».proof.Proof.LibRowOps
import proofs.«177750_j30288109371814_2_alg».proof.Proof.LibHostOps

noncomputable section

open scoped BigOperators

namespace Cert.Gcn

open Idealize.ShloMosaic Idealize.ShloMosaic.ValueIdx

section
variable {N C : ℕ} (v : FVec Ideal ⟨2, ![N, C]⟩ .f32)
  (h' : (⟨2, ![N, C]⟩ : Shape).ReducesTo [1] ⟨1, ![N]⟩)
  (hu : 0 < (⟨0, ![]⟩ : Shape).numel)
  (hb1 : (⟨1, ![N]⟩ : Shape).BroadcastsInDim ⟨2, ![N, 1]⟩ ![0])
  (hb2 : (⟨2, ![N, 1]⟩ : Shape).BroadcastsInDim ⟨2, ![N, C]⟩ ![0, 1])

/-- The host's row maximum, at a row. -/
theorem rowMax_host (h : (⟨2, ![N, C]⟩ : Shape).Reduces [1] ⟨1, ![N]⟩) (negInf : FVec Ideal ⟨0, ![]⟩ .f32) (hneg : negInf ix0 = Ideal.ofBits .f32 0xFF800000#32)
    (negInfVec : FVec Ideal ⟨1, ![N]⟩ .f32) (hnv : ∀ i, negInfVec i = Ideal.ofBits .f32 0xFF800000#32) (n : Fin N) :
    maximumf negInfVec (Host.reduce (FloatOps.maximumf (F := Ideal) (φ := .f32)) v negInf h' hu) (ix1 n)
      = rowMax (fun k => v (ix2 n k)) := by
  rw [maximumf_apply, hnv, Cert.RowOps.hostReduce_max_rows v negInf h' h hu n, hneg]
  unfold rowMax
  exact max_eq_right ((Finset.le_fold_max _).mpr (Or.inl le_rfl))

/-- The host's log-softmax at an entry, given the row maxima. -/
theorem logSoftmax_host_of_max (h : (⟨2, ![N, C]⟩ : Shape).Reduces [1] ⟨1, ![N]⟩) (mx : FVec Ideal ⟨1, ![N]⟩ .f32) (hmx : ∀ n : Fin N, mx (ix1 n) = rowMax (fun k => v (ix2 n k)))
    (zero : FVec Ideal ⟨0, ![]⟩ .f32) (hzero : zero ix0 = 0) (n : Fin N) (c : Fin C) :
    subf (subf v (broadcastInDim ⟨2, ![N, C]⟩ ![0, 1] hb2 (broadcastInDim ⟨2, ![N, 1]⟩ ![0] hb1 mx)))
      (broadcastInDim ⟨2, ![N, C]⟩ ![0, 1] hb2 (Host.log (F := Ideal) (broadcastInDim ⟨2, ![N, 1]⟩ ![0] hb1
        (Host.reduceAdd (F := Ideal)
          (Host.exp (F := Ideal) (subf v (broadcastInDim ⟨2, ![N, C]⟩ ![0, 1] hb2 (broadcastInDim ⟨2, ![N, 1]⟩ ![0] hb1 mx))))
          zero h' hu)))) (ix2 n c)
      = logSoftmax (fun n c => v (ix2 n c)) n c := by
  have hsh : ∀ (p : Fin N) (q : Fin C),
      subf v (broadcastInDim ⟨2, ![N, C]⟩ ![0, 1] hb2 (broadcastInDim ⟨2, ![N, 1]⟩ ![0] hb1 mx)) (ix2 p q)
        = v (ix2 p q) - rowMax (fun k => v (ix2 p k)) := by
    intro p q
    rw [subf_apply, Cert.HostOps.bcast_col_cols, Cert.HostOps.bcast_vec_col, hmx]
  rw [subf_apply, hsh, Cert.HostOps.bcast_col_cols, Cert.HostOps.hostLog_apply, Cert.HostOps.bcast_vec_col,
    Cert.HostOps.hostReduceAdd_rows _ zero h' h hu n, hzero, zero_add]
  unfold logSoftmax
  refine congrArg (fun s : EReal => (v (ix2 n c) - rowMax (fun k => v (ix2 n k))) - Ideal.log s)
    (Finset.sum_congr rfl fun k _ => ?_)
  rw [Cert.HostOps.hostExp_apply, hsh]

end

end Cert.Gcn

end
-- ==== Proof.RValue.lean ====
/-
  The reference program's third stretch, the row-wise log-softmax, and the reference's result.

  The last 15 operations take the matrix the second stretch left (the summed messages plus the bias) and compute,
  row by row: the maximum of the row (the larger of −∞ and the fold of max over the row from −∞), kept as a column
  and repeated along the rows; the matrix less that; the exponentials; their sum over each row from 0, kept as a
  column; the logarithms, repeated along the rows; and the shifted matrix less those. The 15 operations are read in
  four groups, each from arbitrary contents of the buffers — the row maxima (5 operations), the shifted matrix (3),
  the logarithms of the row sums (6), the last subtraction (1) — and the groups are chained: a group writes nothing
  into the buffers a later group reads from before it. An operation of this stretch carries its operands from their
  buffers' types to the value's type and its result back; carried there and back, contents are unchanged.

  At an entry (n, q) the chain is the log-softmax of row n at column q (the maximum and the sum run over row n
  only), and the second stretch's matrix at (n, c) is the per-edge arrangement plus the bias; hence the result array
  is the per-edge arrangement's log-softmax of the four argument arrays.
-/
import proofs.«177750_j30288109371814_2_alg».proof.Proof.RRun
import proofs.«177750_j30288109371814_2_alg».proof.Proof.RStretchB
import proofs.«177750_j30288109371814_2_alg».proof.Proof.GcnSpec
import proofs.«177750_j30288109371814_2_alg».proof.Proof.GcnProgram
import proofs.«177750_j30288109371814_2_alg».proof.Proof.GcnRowSoftmax
import proofs.«177750_j30288109371814_2_alg».proof.Proof.LibRowOps
import proofs.«177750_j30288109371814_2_alg».proof.Proof.LibHostOps
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.ReferenceIdeal.RVal

open Cert.ReferenceIdeal Cert.ReferenceIdeal.Gen Cert.ReferenceIdeal.ValueP
open Idealize.ShloMosaic Idealize.ShloMosaic.TcCoe Idealize.SL.Sem Idealize.ShloMosaic.StableHlo Idealize.ShloMosaic.ValueIdx
open scoped BigOperators

variable (m : (ℓ : Loc nD τ sig) → Buf (Elt Ideal) ℓ)

/-- The host's row maxima: the larger of −∞ and the fold of max over the row from −∞. -/
def rowMaxH (v : FVec Ideal S50000x512 .f32) : FVec Ideal S50000 .f32 :=
  maximumf (broadcastInDim S50000 ![] bcast_S_S50000 (constant (F := Ideal) S_ .f32 0xFF800000#32))
    (Host.reduce (FloatOps.maximumf (F := Ideal) (φ := .f32)) v (constant (F := Ideal) S_ .f32 0xFF800000#32)
      reducesTo_S50000x512_S50000_d1 h_S_)

/-- A per-row statistic kept as a column and repeated along the rows. -/
def alongRows (s : FVec Ideal S50000 .f32) : FVec Ideal S50000x512 .f32 :=
  broadcastInDim S50000x512 ![0, 1] bcast_S50000x1_S50000x512_0_1 (broadcastInDim S50000x1 ![0] bcast_S50000_S50000x1_0 s)

/-- The logarithms of the rows' sums of exponentials, as a column repeated along the rows. -/
def logSumH (w : FVec Ideal S50000x512 .f32) : FVec Ideal S50000x512 .f32 :=
  broadcastInDim S50000x512 ![0, 1] bcast_S50000x1_S50000x512_0_1
    (Host.log (F := Ideal) (broadcastInDim S50000x1 ![0] bcast_S50000_S50000x1_0
      (Host.reduceAdd (F := Ideal) (Host.exp (F := Ideal) w) (constant (F := Ideal) S_ .f32 0x00000000#32)
        reducesTo_S50000x512_S50000_d1 h_S_)))

/-- The host's row-wise log-softmax of a matrix: the rows' maxima subtracted, then the logarithms of the rows' sums
    of exponentials subtracted. -/
def hostLogSoftmax (v : FVec Ideal S50000x512 .f32) : FVec Ideal S50000x512 .f32 :=
  subf (subf v (alongRows (rowMaxH v))) (logSumH (subf v (alongRows (rowMaxH v))))

/-- Contents carried to a buffer's own type and back are the contents. -/
theorem ofBuf_toBuf {T : BufTy} (x : TRef sig T) (v : T.Contents (Elt Ideal)) : x.ofBuf (x.toBuf v) = v := by
  obtain ⟨r, rfl, h2, h3⟩ := x
  rfl

/-- The row maxima, from any contents: the first five operations of the third stretch. -/
theorem reading_rowMax (G : Valuation τ sig (Elt Ideal)) :
    after (((ops (F := Ideal)).drop 60).take 5) G (Proc.devRef .tc main_call1_v2) = rowMaxH (G (Proc.devRef .tc main_v46)) := by
  simp only [ops, List.take_succ_cons, List.take_zero, List.drop_succ_cons, List.drop_zero]
  after_results
  have eout : ∀ X : (⟨S50000, .f32⟩ : BufTy).Contents (Elt Ideal),
      (TRef.of (T := ⟨S50000, .f32⟩) main_call1_v2).toBuf (Val := Elt Ideal) X = X := fun _ => rfl
  have eleaf : ∀ X : (⟨S50000x512, .f32⟩ : BufTy).Contents (Elt Ideal),
      (TRef.of (T := ⟨S50000x512, .f32⟩) main_v46).ofBuf (Val := Elt Ideal) X = X := fun _ => rfl
  repeat rw [ofBuf_toBuf]
  rw [eout, eleaf]
  rfl

/-- The matrix less its rows' maxima, from any contents: the next three operations. -/
theorem reading_shift (G : Valuation τ sig (Elt Ideal)) :
    after (((ops (F := Ideal)).drop 65).take 3) G (Proc.devRef .tc main_call1_v5)
      = subf (G (Proc.devRef .tc main_v46)) (alongRows (G (Proc.devRef .tc main_call1_v2))) := by
  simp only [ops, List.take_succ_cons, List.take_zero, List.drop_succ_cons, List.drop_zero]
  after_results
  rfl

/-- The logarithms of the rows' sums of exponentials, from any contents: the next six operations. -/
theorem reading_logSum (G : Valuation τ sig (Elt Ideal)) :
    after (((ops (F := Ideal)).drop 68).take 6) G (Proc.devRef .tc main_call1_v10)
      = logSumH (G (Proc.devRef .tc main_call1_v5)) := by
  simp only [ops, List.take_succ_cons, List.take_zero, List.drop_succ_cons, List.drop_zero]
  after_results
  rfl

/-- The last operation, from any contents: the shifted matrix less the logarithms. -/
theorem reading_last (G : Valuation τ sig (Elt Ideal)) :
    after ((ops (F := Ideal)).drop 74) G (Proc.devRef .tc main_v47)
      = (subf (F := Ideal) (s := S50000x512) (φ := .f32) (G (Proc.devRef .tc main_call1_v5)) (G (Proc.devRef .tc main_call1_v10))) := by
  simp only [ops, List.drop_succ_cons, List.drop_zero]
  after_results
  rfl

/-- The first five operations write nothing into the matrix they read. -/
theorem frame_rowMax (G : Valuation τ sig (Elt Ideal)) :
    after (((ops (F := Ideal)).drop 60).take 5) G (Proc.devRef .tc main_v46) = G (Proc.devRef .tc main_v46) := by
  simp only [ops, List.take_succ_cons, List.take_zero, List.drop_succ_cons, List.drop_zero]
  after_results

/-- The six operations of the logarithms write nothing into the shifted matrix. -/
theorem frame_logSum (G : Valuation τ sig (Elt Ideal)) :
    after (((ops (F := Ideal)).drop 68).take 6) G (Proc.devRef .tc main_call1_v5) = G (Proc.devRef .tc main_call1_v5) := by
  simp only [ops, List.take_succ_cons, List.take_zero, List.drop_succ_cons, List.drop_zero]
  after_results

/-- The third stretch is its five, three, six and one operations in a row. -/
theorem foldC_split (c : Dev nD) :
    foldC m c = after ((ops (F := Ideal)).drop 74) (after (((ops (F := Ideal)).drop 68).take 6)
      (after (((ops (F := Ideal)).drop 65).take 3) (after (((ops (F := Ideal)).drop 60).take 5) (foldB m c)))) := by
  unfold foldC
  rw [← after_append', ← after_append', ← after_append']
  congr 1

/-- The third stretch leaves in the result array the host's row-wise log-softmax of what the second left. -/
theorem foldC_eq (c : Dev nD) :
    foldC m c (Proc.devRef .tc main_v47) = hostLogSoftmax (foldB m c (Proc.devRef .tc main_v46)) := by
  rw [foldC_split, reading_last, frame_logSum, reading_logSum, reading_shift, frame_rowMax, reading_rowMax]
  rfl

/-- The rows of the matrix are what a reduction over its columns keeps, and there is one such axis. -/
theorem reduces_rows : S50000x512.Reduces [1] S50000 :=
  let ⟨h1, h2⟩ := reducesTo_S50000x512_S50000_d1
  ⟨h1, Nat.zero_lt_one, h2⟩

/-- The host's row-wise log-softmax at an entry: the log-softmax of row n at column q. -/
theorem hostLogSoftmax_apply (v : FVec Ideal S50000x512 .f32) (n : Fin 50000) (q : Fin 512) :
    hostLogSoftmax v (ix2 n q) = Cert.Gcn.logSoftmax (fun n c => v (ix2 n c)) n q := by
  unfold hostLogSoftmax logSumH alongRows rowMaxH
  have hneg : (constant (F := Ideal) S_ .f32 0xFF800000#32) ix0 = Ideal.ofBits .f32 0xFF800000#32 :=
    constant_apply (s := S_) (φ := .f32) 0xFF800000#32 ix0
  have hzero : (constant (F := Ideal) S_ .f32 0x00000000#32) ix0 = 0 :=
    (constant_apply (s := S_) (φ := .f32) 0x00000000#32 ix0).trans Ideal.ofBits_zero_f32
  have hnv : ∀ i, (broadcastInDim S50000 ![] bcast_S_S50000 (constant (F := Ideal) S_ .f32 0xFF800000#32)) i
      = Ideal.ofBits .f32 0xFF800000#32 := fun i => (Cert.HostOps.bcast_scalar _ _ _ i).trans hneg
  have hmx := fun n' : Fin 50000 => Cert.Gcn.rowMax_host (N := 50000) (C := 512) v reducesTo_S50000x512_S50000_d1 h_S_
      reduces_rows (constant (F := Ideal) S_ .f32 0xFF800000#32) hneg
      (broadcastInDim S50000 ![] bcast_S_S50000 (constant (F := Ideal) S_ .f32 0xFF800000#32)) hnv n'
  exact Cert.Gcn.logSoftmax_host_of_max (N := 50000) (C := 512) v reducesTo_S50000x512_S50000_d1 h_S_
    bcast_S50000_S50000x1_0 bcast_S50000x1_S50000x512_0_1 reduces_rows _ hmx
    (constant (F := Ideal) S_ .f32 0x00000000#32) hzero n q

/-! ## The result -/

/-- The reference's result array is the per-edge arrangement's log-softmax of the four argument arrays. -/
theorem foldC_result (c : Dev nD) :
    foldC m c (Proc.devRef .tc main_v47)
      = Cert.Gcn.Host.outPerEdge (m ((c.tc : Thread nD τ).loc main_arg0)) (m ((c.tc : Thread nD τ).loc main_arg1))
          (m ((c.tc : Thread nD τ).loc main_arg2)) (m ((c.tc : Thread nD τ).loc main_arg3)) := by
  refine (foldC_eq m c).trans (funext fun (i : S50000x512.Idx) => ?_)
  obtain ⟨n, q, rfl⟩ : ∃ (n : Fin 50000) (q : Fin 512), i = ix2 n q := ⟨i 0, i 1, eq_ix2 i⟩
  refine (hostLogSoftmax_apply _ n q).trans ?_
  show _ = Cert.Gcn.logSoftmax _ n q
  exact congrArg (fun v : Fin 50000 → Fin 512 → EReal => Cert.Gcn.logSoftmax v n q)
    (funext fun n' => funext fun c' => foldB_pre m c n' c')

end Cert.ReferenceIdeal.RVal

end
-- ==== Proof.lean ====
/-
  A graph-convolution layer with log-softmax rows: the kernel's program against its reference, on the extended reals.

  Both programs take node features x : [50000, 2048], an edge array [2, 400000] of source and target ids, weights
  w : [2048, 512] and a bias [512]. Both add a loop edge to every node, count the degree of every node as the number of
  edges targeting it, and take the degree factor dis = degree^(-1/2) where the degree is positive and 0 elsewhere;
  both form h = x · w. The reference weighs every edge's message h(source) by dis(source) · dis(target) and adds the
  messages into their target rows. The kernel's program scales the rows of h by dis first, adds the gathered rows into
  their target rows, and scales the sums by dis again. Both add the bias and take the log-softmax of every row; the
  kernel's program does the product and the last step in two grid kernels, block by block.

  Equal results, entry by entry: the product is the same sum of products; an edge is dropped by both programs when
  its target id is outside the rows, and reads the same (wrapped and clamped) rows in both; and
      dis(n) · Σ_e dis(s_e) · h(s_e, c)  =  Σ_e (dis(s_e) · dis(n)) · h(s_e, c)
  because dis(n) is a nonnegative real number — the inverse square root of a positive degree, or 0 — and a nonnegative
  real factor distributes over any sum of extended reals (Cert.Gcn.agg_eq). Nothing is asked of the float inputs: the
  law holds with infinities in h as well, so the precondition is not opened.

  The three frames: the two kernel programs' are the generated frame certificates; the reference's is its run with the
  result dropped. The kernel was printed for the ideal reading without any rewrite, so there is nothing to preserve.
-/
import proofs.«177750_j30288109371814_2_alg».proof.Defs
import proofs.«177750_j30288109371814_2_alg».proof.Proof.Gen.Kernel
import proofs.«177750_j30288109371814_2_alg».proof.Proof.Gen.Kernel.Skeleton
import proofs.«177750_j30288109371814_2_alg».proof.Proof.Gen.Kernel.Launch
import proofs.«177750_j30288109371814_2_alg».proof.Proof.Gen.Kernel.Points
import proofs.«177750_j30288109371814_2_alg».proof.Proof.Gen.Kernel.Frame
import proofs.«177750_j30288109371814_2_alg».proof.Proof.Gen.KernelIdeal
import proofs.«177750_j30288109371814_2_alg».proof.Proof.Gen.KernelIdeal.Skeleton
import proofs.«177750_j30288109371814_2_alg».proof.Proof.Gen.KernelIdeal.Launch
import proofs.«177750_j30288109371814_2_alg».proof.Proof.Gen.KernelIdeal.Points
import proofs.«177750_j30288109371814_2_alg».proof.Proof.Gen.KernelIdeal.Frame
import proofs.«177750_j30288109371814_2_alg».proof.Proof.Gen.ReferenceIdeal
import proofs.«177750_j30288109371814_2_alg».proof.Proof.Gen.Pre_finite_inputs
import proofs.«177750_j30288109371814_2_alg».proof.Proof.KRun
import proofs.«177750_j30288109371814_2_alg».proof.Proof.KValue
import proofs.«177750_j30288109371814_2_alg».proof.Proof.RRun
import proofs.«177750_j30288109371814_2_alg».proof.Proof.RValue
import proofs.«177750_j30288109371814_2_alg».proof.Proof.GcnProgram
import Idealize.ShloMosaic.Adequacy
import Idealize.ShloMosaic.Init

noncomputable section

namespace Cert.Proof

open Idealize.ShloMosaic Idealize.SL.Sem

/-- The kernel program's frame at the word-level reading. -/
theorem frame_k : Cert.frame_Kernel := fun m ρ _ => Cert.Kernel.Gen.frame m ρ

/-- The kernel program's frame at the ideal reading. -/
theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.RVal.run_result (F := Ideal) m ρ)

/-- At the ideal reading both programs end with the scaled arrangement's bias-plus-log-softmax of the arguments:
    the kernel's program by its value, the reference by its own (the per-edge arrangement) and the equality of the
    two arrangements. -/
theorem algebraic : Cert.algebraic_KernelIdeal_ReferenceIdeal := by
  intro m ρ m' ρ' _ hagree
  refine ⟨_, (θ_run Cert.KernelIdeal.defs _ _).mono
    (fun _ h c => ⟨(h c).1.trans (Cert.KernelIdeal.KVal.w7_result m ρ c), (h c).2⟩)
    (Cert.KernelIdeal.KVal.run_result (F := Ideal) m ρ), ?_⟩
  refine (θ_run Cert.ReferenceIdeal.defs _ _).mono (fun _ h c => ⟨(h c).1.trans ?_, (h c).2⟩)
    (Cert.ReferenceIdeal.RVal.run_result (F := Ideal) m' ρ')
  rw [Cert.ReferenceIdeal.RVal.foldC_result m' c, (hagree c).1, (hagree c).2.1, (hagree c).2.2.1, (hagree c).2.2.2]
  exact (Cert.Gcn.Host.outScaled_eq _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
